-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S10000x1024 : Shape := ⟨2, ![10000, 1024]⟩
abbrev S200000 : Shape := ⟨1, ![200000]⟩
abbrev S1024x256 : Shape := ⟨2, ![1024, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S256x128 .f32) (main_arg17 : FVec F S128 .f32) (main_arg18 : FVec F S256x128 .f32) (main_arg19 : FVec F S128 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg18
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S256 .f32) (main_arg14 : FVec F S256x256 .f32) (main_arg15 : FVec F S256 .f32) (main_arg16 : FVec F S256x128 .f32) (main_arg17 : FVec F S128 .f32) (main_arg18 : FVec F S256x128 .f32) (main_arg19 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S1024x256 .f32) (main_arg11 : FVec F S256 .f32) (main_arg12 : FVec F S256x256 .f32) (main_arg13 : FVec F S256 .f32) (main_arg14 : FVec F S256x256 .f32) (main_arg15 : FVec F S256 .f32) (main_arg16 : FVec F S256x128 .f32) (main_arg17 : FVec F S128 .f32) (main_arg18 : FVec F S256x128 .f32) (main_arg19 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1024x256 .f32 := Host.absf main_arg10
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_v48 main_v49 main_v50

def fn_part1 {F : FTy → Type} [FloatOps F] (main_arg6 : FVec F S1024x256 .f32) (main_arg7 : FVec F S256 .f32) (main_arg8 : FVec F S1024x256 .f32) (main_arg9 : FVec F S256 .f32) (main_arg10 : FVec F S1024x256 .f32) (main_arg11 : FVec F S256 .f32) (main_arg12 : FVec F S256x256 .f32) (main_arg13 : FVec F S256 .f32) (main_arg14 : FVec F S256x256 .f32) (main_arg15 : FVec F S256 .f32) (main_arg16 : FVec F S256x128 .f32) (main_arg17 : FVec F S128 .f32) (main_arg18 : FVec F S256x128 .f32) (main_arg19 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg6
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1024x256 .f32 := Host.absf main_arg8
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x1024 .f32) (main_arg1 : FVec F S10000x1024 .f32) (main_arg2 : IVec S200000 32) (main_arg3 : IVec S200000 32) (main_arg4 : FVec F S1024x256 .f32) (main_arg5 : FVec F S256 .f32) (main_arg6 : FVec F S1024x256 .f32) (main_arg7 : FVec F S256 .f32) (main_arg8 : FVec F S1024x256 .f32) (main_arg9 : FVec F S256 .f32) (main_arg10 : FVec F S1024x256 .f32) (main_arg11 : FVec F S256 .f32) (main_arg12 : FVec F S256x256 .f32) (main_arg13 : FVec F S256 .f32) (main_arg14 : FVec F S256x256 .f32) (main_arg15 : FVec F S256 .f32) (main_arg16 : FVec F S256x128 .f32) (main_arg17 : FVec F S128 .f32) (main_arg18 : FVec F S256x128 .f32) (main_arg19 : FVec F S128 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S10000x1024 .f32 := Host.absf main_arg1
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S1024x256 .f32 := Host.absf main_arg4
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x1024 : Shape := ⟨2, ![50000, 1024]⟩
abbrev S10000x1024 : Shape := ⟨2, ![10000, 1024]⟩
abbrev S200000 : Shape := ⟨1, ![200000]⟩
abbrev S1024x256 : Shape := ⟨2, ![1024, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S50000x256 : Shape := ⟨2, ![50000, 256]⟩
abbrev S2000x1024 : Shape := ⟨2, ![2000, 1024]⟩
abbrev S2000x256 : Shape := ⟨2, ![2000, 256]⟩
abbrev S1x256 : Shape := ⟨2, ![1, 256]⟩
abbrev S10000x256 : Shape := ⟨2, ![10000, 256]⟩
abbrev S_ : Shape := ⟨0, ![]⟩
abbrev S200000x1 : Shape := ⟨2, ![200000, 1]⟩
abbrev S200000x256 : Shape := ⟨2, ![200000, 256]⟩
abbrev S50000x128 : Shape := ⟨2, ![50000, 128]⟩
abbrev S2000x128 : Shape := ⟨2, ![2000, 128]⟩
abbrev S1x128 : Shape := ⟨2, ![1, 128]⟩
abbrev S10000x128 : Shape := ⟨2, ![10000, 128]⟩

abbrev nBuf : Space → Nat
  | .hbm => 52
  | .vmem => 44
  | .smem => 0
  | _ => 0

abbrev bufTy : (tb : Table) → Fin (tcTables nBuf tb) → BufTy
  | .hbm, ⟨0, _⟩ => ⟨S50000x1024, .f32⟩
  | .hbm, ⟨1, _⟩ => ⟨S10000x1024, .f32⟩
  | .hbm, ⟨2, _⟩ => ⟨S200000, .i32⟩
  | .hbm, ⟨3, _⟩ => ⟨S200000, .i32⟩
  | .hbm, ⟨4, _⟩ => ⟨S1024x256, .f32⟩
  | .hbm, ⟨5, _⟩ => ⟨S256, .f32⟩
  | .hbm, ⟨6, _⟩ => ⟨S1024x256, .f32⟩
  | .hbm, ⟨7, _⟩ => ⟨S256, .f32⟩
  | .hbm, ⟨8, _⟩ => ⟨S1024x256, .f32⟩
  | .hbm, ⟨9, _⟩ => ⟨S256, .f32⟩
  | .hbm, ⟨10, _⟩ => ⟨S1024x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S50000x256, .f32⟩
  | .hbm, ⟨21, _⟩ => ⟨S10000x256, .f32⟩
  | .hbm, ⟨22, _⟩ => ⟨S10000x256, .f32⟩
  | .hbm, ⟨23, _⟩ => ⟨S50000x256, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x256, .f32⟩
  | .hbm, ⟨33, _⟩ => ⟨S_, .f32⟩
  | .hbm, ⟨34, _⟩ => ⟨S50000x256, .f32⟩
  | .hbm, ⟨35, _⟩ => ⟨S200000x1, .i32⟩
  | .hbm, ⟨36, _⟩ => ⟨S50000x256, .f32⟩
  | .hbm, ⟨37, _⟩ => ⟨S_, .i32⟩
  | .hbm, ⟨38, _⟩ => ⟨S200000, .i32⟩
  | .hbm, ⟨39, _⟩ => ⟨S200000, .i1⟩
  | .hbm, ⟨40, _⟩ => ⟨S_, .i32⟩
  | .hbm, ⟨41, _⟩ => ⟨S200000, .i32⟩
  | .hbm, ⟨42, _⟩ => ⟨S200000, .i32⟩
  | .hbm, ⟨43, _⟩ => ⟨S200000, .i32⟩
  | .hbm, ⟨44, _⟩ => ⟨S200000x1, .i32⟩
  | .hbm, ⟨45, _⟩ => ⟨S200000x256, .f32⟩
  | .hbm, ⟨46, _⟩ => ⟨S_, .f32⟩
  | .hbm, ⟨47, _⟩ => ⟨S10000x256, .f32⟩
  | .hbm, ⟨48, _⟩ => ⟨S200000x1, .i32⟩
  | .hbm, ⟨49, _⟩ => ⟨S10000x256, .f32⟩
  | .hbm, ⟨50, _⟩ => ⟨S50000x128, .f32⟩
  | .hbm, ⟨51, _⟩ => ⟨S10000x128, .f32⟩
  | .local _ .vmem, ⟨0, _⟩ => ⟨S2000x1024, .f32⟩
  | .local _ .vmem, ⟨1, _⟩ => ⟨S2000x1024, .f32⟩
  | .local _ .vmem, ⟨2, _⟩ => ⟨S1024x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x1024, .f32⟩
  | .local _ .vmem, ⟨7, _⟩ => ⟨S2000x1024, .f32⟩
  | .local _ .vmem, ⟨8, _⟩ => ⟨S1024x256, .f32⟩
  | .local _ .vmem, ⟨9, _⟩ => ⟨S256, .f32⟩
  | .local _ .vmem, ⟨10, _⟩ => ⟨S2000x256, .f32⟩
  | .local _ .vmem, ⟨11, _⟩ => ⟨S2000x256, .f32⟩
  | .local _ .vmem, ⟨12, _⟩ => ⟨S2000x1024, .f32⟩
  | .local _ .vmem, ⟨13, _⟩ => ⟨S2000x1024, .f32⟩
  | .local _ .vmem, ⟨14, _⟩ => ⟨S1024x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x1024, .f32⟩
  | .local _ .vmem, ⟨19, _⟩ => ⟨S2000x1024, .f32⟩
  | .local _ .vmem, ⟨20, _⟩ => ⟨S1024x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S256, .f32⟩
  | .local _ .vmem, ⟨30, _⟩ => ⟨S256x128, .f32⟩
  | .local _ .vmem, ⟨31, _⟩ => ⟨S128, .f32⟩
  | .local _ .vmem, ⟨32, _⟩ => ⟨S2000x128, .f32⟩
  | .local _ .vmem, ⟨33, _⟩ => ⟨S2000x128, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S256, .f32⟩
  | .local _ .vmem, ⟨40, _⟩ => ⟨S256x128, .f32⟩
  | .local _ .vmem, ⟨41, _⟩ => ⟨S128, .f32⟩
  | .local _ .vmem, ⟨42, _⟩ => ⟨S2000x128, .f32⟩
  | .local _ .vmem, ⟨43, _⟩ => ⟨S2000x128, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S200000 : S_.BroadcastsInDim S200000 (![] : Fin 0 → Fin S200000.rank)
  bcast_S200000_S200000x1_0 : S200000.BroadcastsInDim S200000x1 (![0] : Fin 1 → Fin S200000x1.rank)
  bcast_S_S50000x256 : S_.BroadcastsInDim S50000x256 (![] : Fin 0 → Fin S50000x256.rank)
  bcast_S_S10000x256 : S_.BroadcastsInDim S10000x256 (![] : Fin 0 → Fin S10000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  dot_S2000x1024_S1024x256_S2000x256_1_0_0_1_n_n_wf : DotDims.WF S2000x1024 S1024x256 S2000x256 [1] [0] [0] [1] [] []
  gather_S10000x256_S200000x1_S200000x256_1_0_n_n_0_1_1256_wf : GatherDims.WF S10000x256 S200000x1 S200000x256 [1] [0] [] [0] [] 1 ![1, 256]
  scatter_S50000x256_S200000x1_S200000x256_1_0_0_1_wf : ScatterDims.WF S50000x256 S200000x1 S200000x256 [1] [0] [0] 1
  gather_S50000x256_S200000x1_S200000x256_1_0_n_n_0_1_1256_wf : GatherDims.WF S50000x256 S200000x1 S200000x256 [1] [0] [] [0] [] 1 ![1, 256]
  scatter_S10000x256_S200000x1_S200000x256_1_0_0_1_wf : ScatterDims.WF S10000x256 S200000x1 S200000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S10000x1024.size a
  hwx1_0 : ∀ i : grid1.Coords, EltTy.bits .f32 = 32 ∨ (Rect.block (s := S10000x1024) S2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S10000x256.size a
  hwx1_3 : ∀ i : grid1.Coords, EltTy.bits .f32 = 32 ∨ (Rect.block (s := S10000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1024.size a ≤ S10000x1024.size a
  hwx2_0 : ∀ i : grid2.Coords, EltTy.bits .f32 = 32 ∨ (Rect.block (s := S10000x1024) S2000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S10000x256.size a
  hwx2_3 : ∀ i : grid2.Coords, EltTy.bits .f32 = 32 ∨ (Rect.block (s := S10000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1024.size a ≤ S50000x1024.size a
  hwx3_0 : ∀ i : grid3.Coords, EltTy.bits .f32 = 32 ∨ (Rect.block (s := S50000x1024) S2000x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S1024x256.size a
  hwx3_1 : ∀ i : grid3.Coords, EltTy.bits .f32 = 32 ∨ (Rect.block (s := S1024x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S10000x256.size a
  hwx5_0 : ∀ i : grid5.Coords, EltTy.bits .f32 = 32 ∨ (Rect.block (s := S10000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S10000x256.size a
  hwx5_1 : ∀ i : grid5.Coords, EltTy.bits .f32 = 32 ∨ (Rect.block (s := S10000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x128.size a ≤ S256x128.size a
  hwx5_4 : ∀ i : grid5.Coords, EltTy.bits .f32 = 32 ∨ (Rect.block (s := S256x128) S256x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S10000x128.size a
  hwx5_6 : ∀ i : grid5.Coords, EltTy.bits .f32 = 32 ∨ (Rect.block (s := S10000x128) S2000x128.size (cc5_transform_6 i) (hinb5_6 i)).WholeWords (EltTy.packing .f32)

variable [Facts₀]

def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S10000x256_S200000x1_S200000x256_1_0_0_1 : ScatterDims S10000x256 S200000x1 S200000x256 where
  updateWindowDims := [1]
  insertedWindowDims := [0]
  scatterDimsToOperandDims := [0]
  indexVectorDim := 1
  wf := scatter_S10000x256_S200000x1_S200000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1024x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v13) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v24) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v23) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S256x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg19) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v25) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x1024 : Shape := ⟨2, ![50000, 1024]⟩
abbrev S10000x1024 : Shape := ⟨2, ![10000, 1024]⟩
abbrev S200000 : Shape := ⟨1, ![200000]⟩
abbrev S1024x256 : Shape := ⟨2, ![1024, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S50000x256 : Shape := ⟨2, ![50000, 256]⟩
abbrev S1x256 : Shape := ⟨2, ![1, 256]⟩
abbrev S_ : Shape := ⟨0, ![]⟩
abbrev S10000x256 : Shape := ⟨2, ![10000, 256]⟩
abbrev S200000x1 : Shape := ⟨2, ![200000, 1]⟩
abbrev S200000x1024 : Shape := ⟨2, ![200000, 1024]⟩
abbrev S200000x256 : Shape := ⟨2, ![200000, 256]⟩
abbrev S50000x128 : Shape := ⟨2, ![50000, 128]⟩
abbrev S1x128 : Shape := ⟨2, ![1, 128]⟩
abbrev S10000x128 : Shape := ⟨2, ![10000, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S10000x1024, .f32⟩
  | .hbm, ⟨2, _⟩ => ⟨S200000, .i32⟩
  | .hbm, ⟨3, _⟩ => ⟨S200000, .i32⟩
  | .hbm, ⟨4, _⟩ => ⟨S1024x256, .f32⟩
  | .hbm, ⟨5, _⟩ => ⟨S256, .f32⟩
  | .hbm, ⟨6, _⟩ => ⟨S1024x256, .f32⟩
  | .hbm, ⟨7, _⟩ => ⟨S256, .f32⟩
  | .hbm, ⟨8, _⟩ => ⟨S1024x256, .f32⟩
  | .hbm, ⟨9, _⟩ => ⟨S256, .f32⟩
  | .hbm, ⟨10, _⟩ => ⟨S1024x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S50000x256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S_, .f32⟩
  | .hbm, ⟨25, _⟩ => ⟨S50000x256, .f32⟩
  | .hbm, ⟨26, _⟩ => ⟨S50000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x1024, .f32⟩
  | .hbm, ⟨43, _⟩ => ⟨S200000x256, .f32⟩
  | .hbm, ⟨44, _⟩ => ⟨S1x256, .f32⟩
  | .hbm, ⟨45, _⟩ => ⟨S200000x256, .f32⟩
  | .hbm, ⟨46, _⟩ => ⟨S200000x256, .f32⟩
  | .hbm, ⟨47, _⟩ => ⟨S_, .f32⟩
  | .hbm, ⟨48, _⟩ => ⟨S200000x256, .f32⟩
  | .hbm, ⟨49, _⟩ => ⟨S200000x256, .f32⟩
  | .hbm, ⟨50, _⟩ => ⟨S_, .f32⟩
  | .hbm, ⟨51, _⟩ => ⟨S50000x256, .f32⟩
  | .hbm, ⟨52, _⟩ => ⟨S200000x1, .i32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S200000, .i32⟩
  | .hbm, ⟨68, _⟩ => ⟨S200000, .i1⟩
  | .hbm, ⟨69, _⟩ => ⟨S_, .i32⟩
  | .hbm, ⟨70, _⟩ => ⟨S200000, .i32⟩
  | .hbm, ⟨71, _⟩ => ⟨S200000, .i32⟩
  | .hbm, ⟨72, _⟩ => ⟨S200000, .i32⟩
  | .hbm, ⟨73, _⟩ => ⟨S200000x1, .i32⟩
  | .hbm, ⟨74, _⟩ => ⟨S200000x1024, .f32⟩
  | .hbm, ⟨75, _⟩ => ⟨S200000x256, .f32⟩
  | .hbm, ⟨76, _⟩ => ⟨S1x256, .f32⟩
  | .hbm, ⟨77, _⟩ => ⟨S200000x256, .f32⟩
  | .hbm, ⟨78, _⟩ => ⟨S200000x256, .f32⟩
  | .hbm, ⟨79, _⟩ => ⟨S_, .f32⟩
  | .hbm, ⟨80, _⟩ => ⟨S200000x256, .f32⟩
  | .hbm, ⟨81, _⟩ => ⟨S200000x256, .f32⟩
  | .hbm, ⟨82, _⟩ => ⟨S_, .f32⟩
  | .hbm, ⟨83, _⟩ => ⟨S10000x256, .f32⟩
  | .hbm, ⟨84, _⟩ => ⟨S200000x1, .i32⟩
  | .hbm, ⟨85, _⟩ => ⟨S10000x256, .f32⟩
  | .hbm, ⟨86, _⟩ => ⟨S10000x256, .f32⟩
  | .hbm, ⟨87, _⟩ => ⟨S10000x256, .f32⟩
  | .hbm, ⟨88, _⟩ => ⟨S1x256, .f32⟩
  | .hbm, ⟨89, _⟩ => ⟨S10000x256, .f32⟩
  | .hbm, ⟨90, _⟩ => ⟨S10000x256, .f32⟩
  | .hbm, ⟨91, _⟩ => ⟨S_, .f32⟩
  | .hbm, ⟨92, _⟩ => ⟨S10000x256, .f32⟩
  | .hbm, ⟨93, _⟩ => ⟨S10000x256, .f32⟩
  | .hbm, ⟨94, _⟩ => ⟨S10000x128, .f32⟩
  | .hbm, ⟨95, _⟩ => ⟨S1x128, .f32⟩
  | .hbm, ⟨96, _⟩ => ⟨S10000x128, .f32⟩
  | .hbm, ⟨97, _⟩ => ⟨S10000x128, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call2_cst : Ref sig .tc := ⟨.hbm, 47, rfl⟩
abbrev main_call2_v0 : Ref sig .tc := ⟨.hbm, 48, rfl⟩
abbrev main_v21 : Ref sig .tc := ⟨.hbm, 49, rfl⟩
abbrev main_cst : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call3_cst : Ref sig .tc := ⟨.hbm, 59, rfl⟩
abbrev main_call3_v0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_1 : Ref sig .tc := ⟨.hbm, 66, rfl⟩
abbrev main_v35 : Ref sig .tc := ⟨.hbm, 67, rfl⟩
abbrev main_v36 : Ref sig .tc := ⟨.hbm, 68, rfl⟩
abbrev main_c_2 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call4_cst : Ref sig .tc := ⟨.hbm, 79, rfl⟩
abbrev main_call4_v0 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call5_cst : Ref sig .tc := ⟨.hbm, 91, rfl⟩
abbrev main_call5_v0 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S200000 : S_.BroadcastsInDim S200000 (![] : Fin 0 → Fin S200000.rank)
  bcast_S200000_S200000x1_0 : S200000.BroadcastsInDim S200000x1 (![0] : Fin 1 → Fin S200000x1.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S10000x128_0_1 : S1x128.BroadcastsInDim S10000x128 (![0, 1] : Fin 2 → Fin S10000x128.rank)
  dot_S50000x1024_S1024x256_S50000x256_1_0_0_1_n_n_wf : DotDims.WF S50000x1024 S1024x256 S50000x256 [1] [0] [0] [1] [] []
  dot_S10000x1024_S1024x256_S10000x256_1_0_0_1_n_n_wf : DotDims.WF S10000x1024 S1024x256 S10000x256 [1] [0] [0] [1] [] []
  gather_S10000x1024_S200000x1_S200000x1024_1_0_n_n_0_1_11024_wf : GatherDims.WF S10000x1024 S200000x1 S200000x1024 [1] [0] [] [0] [] 1 ![1, 1024]
  dot_S200000x1024_S1024x256_S200000x256_1_0_0_1_n_n_wf : DotDims.WF S200000x1024 S1024x256 S200000x256 [1] [0] [0] [1] [] []
  scatter_S50000x256_S200000x1_S200000x256_1_0_0_1_wf : ScatterDims.WF S50000x256 S200000x1 S200000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x1024_S200000x1_S200000x1024_1_0_n_n_0_1_11024_wf : GatherDims.WF S50000x1024 S200000x1 S200000x1024 [1] [0] [] [0] [] 1 ![1, 1024]
  scatter_S10000x256_S200000x1_S200000x256_1_0_0_1_wf : ScatterDims.WF S10000x256 S200000x1 S200000x256 [1] [0] [0] 1
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []

variable [Facts₀]

def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf
def gather_S10000x1024_S200000x1_S200000x1024_1_0_n_n_0_1_11024 : GatherDims S10000x1024 S200000x1 S200000x1024 where
  offsetDims := [1]
  collapsedSliceDims := [0]
  operandBatchingDims := []
  startIndicesBatchingDims := []
  startIndexMap := [0]
  indexVectorDim := 1
  sliceSizes := ![1, 1024]
  wf := gather_S10000x1024_S200000x1_S200000x1024_1_0_n_n_0_1_11024_wf
def dot_S200000x1024_S1024x256_S200000x256_1_0_0_1_n_n : DotDims S200000x1024 S1024x256 S200000x256 where
  lhsContracting := [1]
  rhsContracting := [0]
  lhsNonContracting := [0]
  rhsNonContracting := [1]
  lhsBatch := []
  rhsBatch := []
  wf := dot_S200000x1024_S1024x256_S200000x256_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x1024_S200000x1_S200000x1024_1_0_n_n_0_1_11024 : GatherDims S50000x1024 S200000x1 S200000x1024 where
  offsetDims := [1]
  collapsedSliceDims := [0]
  operandBatchingDims := []
  startIndicesBatchingDims := []
  startIndexMap := [0]
  indexVectorDim := 1
  sliceSizes := ![1, 1024]
  wf := gather_S50000x1024_S200000x1_S200000x1024_1_0_n_n_0_1_11024_wf
def scatter_S10000x256_S200000x1_S200000x256_1_0_0_1 : ScatterDims S10000x256 S200000x1 S200000x256 where
  updateWindowDims := [1]
  insertedWindowDims := [0]
  scatterDimsToOperandDims := [0]
  indexVectorDim := 1
  wf := scatter_S10000x256_S200000x1_S200000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KRun.lean ====
/-
  The idealized kernel's run with its two results named.  The program is six kernel regions around one stretch of
  host operations; the buffers' contents at each boundary are a fold from the launch memory, and at the return every
  unscoped buffer holds the last boundary's contents.  So every weakly fair execution terminates, nothing faulting,
  with both result buffers at the last boundary's contents and every argument as launched.
-/
import proofs.«112475_j16947940950559_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Both results end at the last boundary's contents, the arguments as launched. -/
theorem run_results : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_v25) = W7 m ρ c (Proc.devRef .tc main_v25)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)), h c _ (mem_uc main_v25 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c)⟩)

end Cert.KernelIdeal.Run

end
-- ==== Proof.KChain.lean ====
/-
  Buffers the regions and the host stretch leave alone, followed back through the boundaries.

  The contents at each boundary of the program are a fold from the launch memory: a region changes only the array of
  its output window, the host stretch only the buffers its operations write.  So an argument read at a later boundary
  is the launch argument, and a region's output read at a later boundary is what that region left, as long as nothing in
  between writes it.
-/
import proofs.«112475_j16947940950559_1_alg».proof.Proof.Gen.KernelIdeal.Frame

noncomputable section

namespace Cert.KernelIdeal.KChain

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem at1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

theorem at1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := W1_of_ne m ρ c main_arg6 (by decide)
    _ = m ((c : Thread nD τ).loc main_arg6) := rfl

theorem at1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := W1_of_ne m ρ c main_arg7 (by decide)
    _ = m ((c : Thread nD τ).loc main_arg7) := rfl

theorem at2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem at2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

theorem at2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem at3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem at3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem at3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem at4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem at4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem at4_v2 (c : Dev nD) : W4 m ρ c (Proc.devRef .tc main_v2) = W3 m ρ c (Proc.devRef .tc main_v2) :=
  calc W4 m ρ c (Proc.devRef .tc main_v2)
    _ = W3 m ρ c (Proc.devRef .tc main_v2) := W4_of_ne m ρ c main_v2 (by decide)

theorem at5_v0 (c : Dev nD) : W5 m ρ c (Proc.devRef .tc main_v0) = W1 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)

theorem at5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem at5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

theorem at5_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := W1_of_ne m ρ c main_arg16 (by decide)
    _ = m ((c : Thread nD τ).loc main_arg16) := rfl

theorem at5_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := W1_of_ne m ρ c main_arg17 (by decide)
    _ = m ((c : Thread nD τ).loc main_arg17) := rfl

theorem at6_v23 (c : Dev nD) : W6 m ρ c (Proc.devRef .tc main_v23) = W5 m ρ c (Proc.devRef .tc main_v23) :=
  calc W6 m ρ c (Proc.devRef .tc main_v23)
    _ = W5 m ρ c (Proc.devRef .tc main_v23) := W6_of_ne m ρ c main_v23 (by decide)

theorem at6_v1 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := W3_of_ne m ρ c main_v1 (by decide)

theorem at6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_of_ne m ρ c main_arg14 (by decide)
    _ = m ((c : Thread nD τ).loc main_arg14) := rfl

theorem at6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := W1_of_ne m ρ c main_arg15 (by decide)
    _ = m ((c : Thread nD τ).loc main_arg15) := rfl

theorem at6_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := W1_of_ne m ρ c main_arg18 (by decide)
    _ = m ((c : Thread nD τ).loc main_arg18) := rfl

theorem at6_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := W1_of_ne m ρ c main_arg19 (by decide)
    _ = m ((c : Thread nD τ).loc main_arg19) := rfl

theorem at7_v24 (c : Dev nD) : W7 m ρ c (Proc.devRef .tc main_v24) = W6 m ρ c (Proc.devRef .tc main_v24) :=
  calc W7 m ρ c (Proc.devRef .tc main_v24)
    _ = W6 m ρ c (Proc.devRef .tc main_v24) := W7_of_ne m ρ c main_v24 (by decide)

end Cert.KernelIdeal.KChain

end
-- ==== Proof.Spec.lean ====
/-
  The function both programs compute, over variable extents, at the extended reals.

  A dense layer reads a row of its input against a column of its weights: entry (i, j) of the result is
  (sum over k of x (i, k) * w (k, j)) + b j; with the rectifier it is the larger of that and the zero word.
  Taking rows `ρ` of a matrix commutes with every such row-wise layer: row e of the layer applied to the taken
  rows is the layer's row `ρ e` (`denseRelu_takeRows`) — this is the one law that joins the two programs, which
  gather the rows before or after the message layer.
  The update and projection is two layers in a row over the entrywise sum of the aggregate and the initial
  projection.
-/
import Idealize.ShloMosaic.Lib.ValueIdx
import Idealize.ShloMosaic.PureOps.Ideal.Laws

noncomputable section

namespace Cert.Spec

open Idealize.ShloMosaic Idealize.ShloMosaic.ValueIdx

/-- The zero word of the rectifier, kept as its pattern: both programs carry the same word. -/
abbrev zeroWord : EReal := Ideal.ofBits .f32 0x00000000#32

/-- A dense layer at (i, j): the row of `x` against the column of `w`, plus the bias of column j. -/
def dense {n K N : Nat} (x : (⟨2, ![n, K]⟩ : Shape).Idx → EReal) (w : (⟨2, ![K, N]⟩ : Shape).Idx → EReal)
    (b : (⟨1, ![N]⟩ : Shape).Idx → EReal) : (⟨2, ![n, N]⟩ : Shape).Idx → EReal :=
  fun i => (∑ k : Fin K, x (ix2 (i 0) k) * w (ix2 k (i 1))) + b (ix1 (i 1))

/-- A dense layer followed by the rectifier. -/
def denseRelu {n K N : Nat} (x : (⟨2, ![n, K]⟩ : Shape).Idx → EReal) (w : (⟨2, ![K, N]⟩ : Shape).Idx → EReal)
    (b : (⟨1, ![N]⟩ : Shape).Idx → EReal) : (⟨2, ![n, N]⟩ : Shape).Idx → EReal :=
  fun i => max (dense x w b i) zeroWord

/-- The rows `ρ e` of a matrix, one per e. -/
def takeRows {n E K : Nat} (x : (⟨2, ![n, K]⟩ : Shape).Idx → EReal) (ρ : Fin E → Fin n) :
    (⟨2, ![E, K]⟩ : Shape).Idx → EReal :=
  fun i => x (ix2 (ρ (i 0)) (i 1))

/-- The entrywise sum of two matrices. -/
def addMat {n K : Nat} (x y : (⟨2, ![n, K]⟩ : Shape).Idx → EReal) : (⟨2, ![n, K]⟩ : Shape).Idx → EReal :=
  fun i => x i + y i

/-- The update layer with the rectifier, then the projection layer, over the sum of aggregate and initial rows. -/
def updProj {n H O : Nat} (agg init : (⟨2, ![n, H]⟩ : Shape).Idx → EReal)
    (w1 : (⟨2, ![H, H]⟩ : Shape).Idx → EReal) (b1 : (⟨1, ![H]⟩ : Shape).Idx → EReal)
    (w2 : (⟨2, ![H, O]⟩ : Shape).Idx → EReal) (b2 : (⟨1, ![O]⟩ : Shape).Idx → EReal) :
    (⟨2, ![n, O]⟩ : Shape).Idx → EReal :=
  dense (denseRelu (addMat agg init) w1 b1) w2 b2

theorem dense_apply {n K N : Nat} (x : (⟨2, ![n, K]⟩ : Shape).Idx → EReal) (w : (⟨2, ![K, N]⟩ : Shape).Idx → EReal)
    (b : (⟨1, ![N]⟩ : Shape).Idx → EReal) (r : Fin n) (j : Fin N) :
    dense x w b (ix2 r j) = (∑ k : Fin K, x (ix2 r k) * w (ix2 k j)) + b (ix1 j) := rfl

theorem denseRelu_apply {n K N : Nat} (x : (⟨2, ![n, K]⟩ : Shape).Idx → EReal)
    (w : (⟨2, ![K, N]⟩ : Shape).Idx → EReal) (b : (⟨1, ![N]⟩ : Shape).Idx → EReal) (r : Fin n) (j : Fin N) :
    denseRelu x w b (ix2 r j) = max ((∑ k : Fin K, x (ix2 r k) * w (ix2 k j)) + b (ix1 j)) zeroWord := rfl

/-- Taking rows commutes with a dense layer and the rectifier: the layer works row by row. -/
theorem denseRelu_takeRows {n E K N : Nat} (x : (⟨2, ![n, K]⟩ : Shape).Idx → EReal)
    (w : (⟨2, ![K, N]⟩ : Shape).Idx → EReal) (b : (⟨1, ![N]⟩ : Shape).Idx → EReal) (ρ : Fin E → Fin n) :
    denseRelu (takeRows x ρ) w b = takeRows (denseRelu x w b) ρ := rfl

/-- The whole embedding of one side of the graph: the other side's features go through the message layer, the
    rows `ρ` of the result are taken (one per edge) and summed into their receivers by `scat`; the receivers' own
    features go through the initial layer; update and projection follow. -/
def embed {n d E D H O : Nat} (scat : ((⟨2, ![E, H]⟩ : Shape).Idx → EReal) → (⟨2, ![n, H]⟩ : Shape).Idx → EReal)
    (ρ : Fin E → Fin d)
    (own : (⟨2, ![n, D]⟩ : Shape).Idx → EReal) (other : (⟨2, ![d, D]⟩ : Shape).Idx → EReal)
    (wi : (⟨2, ![D, H]⟩ : Shape).Idx → EReal) (bi : (⟨1, ![H]⟩ : Shape).Idx → EReal)
    (wm : (⟨2, ![D, H]⟩ : Shape).Idx → EReal) (bm : (⟨1, ![H]⟩ : Shape).Idx → EReal)
    (w1 : (⟨2, ![H, H]⟩ : Shape).Idx → EReal) (b1 : (⟨1, ![H]⟩ : Shape).Idx → EReal)
    (w2 : (⟨2, ![H, O]⟩ : Shape).Idx → EReal) (b2 : (⟨1, ![O]⟩ : Shape).Idx → EReal) :
    (⟨2, ![n, O]⟩ : Shape).Idx → EReal :=
  updProj (scat (takeRows (denseRelu other wm bm) ρ)) (denseRelu own wi bi) w1 b1 w2 b2

end Cert.Spec

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibGather.lean ====
/-
  A general lemma: the row gather of a matrix read at an index.

  The dimension numbers "take whole rows": the operand [N, C], the start indices [E, 1] (one row number per e), the
  result [E, C]; the operand's axis 0 is collapsed and named by the start index, axis 1 is the offset axis, the slice is
  one whole row.  Result entry (e, j) is the operand at (row e, j), where row e is the start index of e read signed
  and clamped into [0, N - 1] — a function of the start indices and of N only, whatever the width C.
-/
import Idealize.ShloMosaic.Lib.ValueIdx
import Idealize.ShloMosaic.Lib.Pipeline.Value

noncomputable section

namespace Cert.LibGather

open Idealize.ShloMosaic Idealize.ShloMosaic.ValueIdx

variable {α : Type}

/-- The row-taking dimension numbers over any well-formedness witness. -/
abbrev rowDims (N E C : Nat)
    (wf : GatherDims.WF (⟨2, ![N, C]⟩ : Shape) ⟨2, ![E, 1]⟩ ⟨2, ![E, C]⟩ [1] [0] [] [0] [] 1 ![1, C]) :
    GatherDims (⟨2, ![N, C]⟩ : Shape) ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row `e` reads: its start index, signed, clamped into [0, N - 1]. -/
def rowOf (N : Nat) {E w : Nat} (idx : IVec (⟨2, ![E, 1]⟩ : Shape) w) (e : Fin E) : Nat :=
  min (idx (ix2 e (0 : Fin 1))).toInt.toNat (N - 1)

theorem rowOf_lt {N : Nat} (hN : 0 < N) {E w : Nat} (idx : IVec (⟨2, ![E, 1]⟩ : Shape) w) (e : Fin E) :
    rowOf N idx e < N := by
  unfold rowOf; omega

/-- On the collapsed axis the operand index is the clamped start index. -/
theorem operandIdx_row {N E C w : Nat}
    (wf : GatherDims.WF (⟨2, ![N, C]⟩ : Shape) ⟨2, ![E, 1]⟩ ⟨2, ![E, C]⟩ [1] [0] [] [0] [] 1 ![1, C])
    (idx : IVec (⟨2, ![E, 1]⟩ : Shape) w) (e : Fin E) (j : Fin C) :
    (rowDims N E C wf).start (ix2 e j) idx (0 : Fin 2) + (rowDims N E C wf).batchCoord (ix2 e j) (0 : Fin 2)
      + (rowDims N E C wf).offCoord (ix2 e j) (0 : Fin 2) = rowOf N idx e := by
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowDims N E C wf).startIndexMap from List.mem_singleton.mpr rfl)]
  have hsi : (rowDims N E C wf).siIdx (ix2 e j) ⟨List.idxOf (0 : Fin 2) (rowDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column. -/
theorem operandIdx_col {N E C w : Nat}
    (wf : GatherDims.WF (⟨2, ![N, C]⟩ : Shape) ⟨2, ![E, 1]⟩ ⟨2, ![E, C]⟩ [1] [0] [] [0] [] 1 ![1, C])
    (idx : IVec (⟨2, ![E, 1]⟩ : Shape) w) (e : Fin E) (j : Fin C) :
    (rowDims N E C wf).start (ix2 e j) idx (1 : Fin 2) + (rowDims N E C wf).batchCoord (ix2 e j) (1 : Fin 2)
      + (rowDims N E C wf).offCoord (ix2 e j) (1 : Fin 2) = j.val := by
  have hs : (rowDims N E C wf).start (ix2 e j) idx (1 : Fin 2) = 0 := by
    unfold GatherDims.start
    rw [dif_neg (fun h : (1 : Fin 2) ∈ (rowDims N E C wf).startIndexMap =>
      absurd (congrArg Fin.val (List.mem_singleton.mp h)) Nat.one_ne_zero)]
  rw [hs, GatherDims.batchCoord_eq_zero _ _ _ List.not_mem_nil]
  simp only [Nat.zero_add, Nat.add_zero]
  rfl

/-- THE ROW GATHER READ AT (e, j): the operand at (row e, j). -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec (⟨2, ![E, 1]⟩ : Shape) w) (e : Fin E) (j : Fin C) :
    Host.gather (rowDims N E C wf) x idx (ix2 e j) = x (ix2 ⟨rowOf N idx e, rowOf_lt hN idx e⟩ j) := by
  unfold Host.gather
  refine congrArg x (funext fun a => Fin.ext ?_)
  match a with
  | ⟨0, _⟩ => exact operandIdx_row wf idx e j
  | ⟨1, _⟩ => exact operandIdx_col wf idx e j

end Cert.LibGather

end
-- ==== Proof.HostLayer.lean ====
/-
  The host's layers read as the functions of the specification, over variable extents, at the extended reals.

  On the host a dense layer is a `dot_general` with the plain dimension numbers, plus the bias [N] recast as a row
  [1, N] and spread down the n rows; the rectifier is the entrywise larger of that and a scalar zero spread over the
  array.  Read at (r, j) these are the specification's `dense` and `denseRelu`.  A row gather is the specification's
  `takeRows` at the clamped start indices.
-/
import proofs.«112475_j16947940950559_1_alg».proof.Proof.Spec
import proofs.«112475_j16947940950559_1_alg».proof.Proof.LibDense
import proofs.«112475_j16947940950559_1_alg».proof.Proof.LibGather
import Idealize.ShloMosaic.Lib.ValueIdx
import Idealize.ShloMosaic.Lib.Pipeline.Value
import Idealize.ShloMosaic.PureOps.Ideal.Laws

noncomputable section

namespace Cert.HostLayer

open Idealize.ShloMosaic Idealize.ShloMosaic.ValueIdx Cert.Spec

/-- The bias [N] as a row [1, N] spread down n rows, read at (r, j): the bias of column j. -/
theorem bias_apply {n N : Nat} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![n, N]⟩ ![0, 1]) (r : Fin n) (j : Fin N) :
    broadcastInDim (⟨2, ![n, N]⟩ : Shape) ![0, 1] h2 (broadcastInDim (⟨2, ![1, N]⟩ : Shape) ![1] h1 b) (ix2 r j)
      = b (ix1 j) := by
  refine (broadcastInDim_apply ![0, 1] h2 _ (ix2 r j) (ix2 (0 : Fin 1) j) (fun a => ?_)).trans
    (broadcastInDim_apply ![1] h1 b (ix2 (0 : Fin 1) j) (ix1 j) (fun a => ?_))
  · match a with
    | ⟨0, _⟩ => show 0 = if (1 : Nat) = 1 then 0 else r.val; rw [if_pos rfl]
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- A scalar spread over an array, read anywhere: the scalar. -/
theorem scalar_apply {n N : Nat} (z : (⟨0, ![]⟩ : Shape).Idx → EReal)
    (h0 : (⟨0, ![]⟩ : Shape).BroadcastsInDim ⟨2, ![n, N]⟩ ![]) (i : (⟨2, ![n, N]⟩ : Shape).Idx) :
    broadcastInDim (⟨2, ![n, N]⟩ : Shape) ![] h0 z i = z ix0 :=
  broadcastInDim_apply ![] h0 z i ix0 (fun a => a.elim0)

section Layers
variable {n K N : Nat} (wf : DotDims.WF (⟨2, ![n, K]⟩ : Shape) ⟨2, ![K, N]⟩ ⟨2, ![n, N]⟩ [1] [0] [0] [1] [] [])

/-- The host's dense layer is the specification's. -/
theorem dense_eq (x : FVec Ideal (⟨2, ![n, K]⟩ : Shape) .f32) (w : FVec Ideal (⟨2, ![K, N]⟩ : Shape) .f32)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral (Cert.LibDense.plainOf wf) none x w)
        (broadcastInDim (⟨2, ![n, N]⟩ : Shape) ![0, 1] h2 (broadcastInDim (⟨2, ![1, N]⟩ : Shape) ![1] h1 b))
      = dense x w b := by
  funext i
  obtain ⟨r, j, rfl⟩ : ∃ (r : Fin n) (j : Fin N), i = ix2 r j := ⟨i 0, i 1, eq_ix2 i⟩
  exact congrArg₂ (· + ·) (Cert.LibDense.dotGeneral_plain wf none _ x w r j) (bias_apply b h1 h2 r j)

/-- The host's dense layer with the rectifier is the specification's. -/
theorem denseRelu_eq (x : FVec Ideal (⟨2, ![n, K]⟩ : Shape) .f32) (w : FVec Ideal (⟨2, ![K, N]⟩ : Shape) .f32)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![n, N]⟩ ![0, 1])
    (h0 : (⟨0, ![]⟩ : Shape).BroadcastsInDim ⟨2, ![n, N]⟩ ![]) :
    maximumf (addf (Host.dotGeneral (Cert.LibDense.plainOf wf) none x w)
        (broadcastInDim (⟨2, ![n, N]⟩ : Shape) ![0, 1] h2 (broadcastInDim (⟨2, ![1, N]⟩ : Shape) ![1] h1 b)))
        (broadcastInDim (⟨2, ![n, N]⟩ : Shape) ![] h0 (constant (F := Ideal) (⟨0, ![]⟩ : Shape) .f32 0x00000000#32))
      = denseRelu x w b := by
  funext i
  show max _ _ = max _ _
  exact congrArg₂ max (congrFun (dense_eq wf x w b h1 h2) i) (scalar_apply _ h0 i)

end Layers

/-- The host's row gather is the rows at the clamped start indices. -/
theorem gather_eq {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → EReal) (idx : IVec (⟨2, ![E, 1]⟩ : Shape) w) :
    Host.gather (Cert.LibGather.rowDims N E C wf) x idx
      = takeRows x (fun e => ⟨Cert.LibGather.rowOf N idx e, Cert.LibGather.rowOf_lt hN idx e⟩) := by
  funext i
  obtain ⟨e, j, rfl⟩ : ∃ (e : Fin E) (j : Fin C), i = ix2 e j := ⟨i 0, i 1, eq_ix2 i⟩
  exact Cert.LibGather.gather_rows_apply hN wf x idx e j

end Cert.HostLayer

end
-- ==== Proof.Layer.lean ====
/-
  What each kernel body stores, as a function of the blocks it loads, at the extended reals.

  The first kernel loads a block of rows x, the weights w and the bias b, and stores the rectified dense layer of them:
  entry (r, j) is max ((sum over k of x (r, k) * w (k, j)) + b j, 0) — the narrowing of x and w to a shorter float
  format is the identity here, the matrix product runs into a zero accumulator, and the bias row [256] is recast as
  [1, 256] and spread down the rows.
  The second kernel loads a block of aggregate rows and the matching block of initial rows, adds them entrywise, and
  runs two such layers in a row (the rectifier after the first only).
-/
import proofs.«112475_j16947940950559_1_alg».proof.Proof.Gen.KernelIdeal.Skeleton
import proofs.«112475_j16947940950559_1_alg».proof.Proof.Spec
import proofs.«112475_j16947940950559_1_alg».proof.Proof.LibDense
import Idealize.ShloMosaic.Lib.ValueIdx
import Idealize.ShloMosaic.Lib.ValueLayout
import Idealize.ShloMosaic.Lib.Pipeline.Value

noncomputable section

namespace Cert.KernelIdeal.Layer

open Cert.KernelIdeal Cert.KernelIdeal.Gen Idealize.ShloMosaic Idealize.ShloMosaic.ValueIdx Cert.Spec

/-- A rectified dense layer on the vector unit, read at (r, j). -/
theorem reluLayer_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (b : FVec Ideal (⟨1, ![N]⟩ : Shape) .f32) (hsc : (⟨1, ![N]⟩ : Shape).ShapeCasts ⟨2, ![1, N]⟩)
    (hbc : (⟨2, ![1, N]⟩ : Shape).Broadcasts ⟨2, ![n, N]⟩) (r : Fin n) (j : Fin N) :
    maximumf (addf (matmul (Cert.LibDense.plainOf wf) none l w (constant (⟨2, ![n, N]⟩ : Shape) .f32 0x00000000#32))
        (broadcastTo (⟨2, ![n, N]⟩ : Shape) (shapeCast (⟨2, ![1, N]⟩ : Shape) b hsc) hbc))
        (broadcast (⟨2, ![n, N]⟩ : Shape) (Scalar.ofBits (F := Ideal) .f32 0x00000000#32)) (ix2 r j)
      = denseRelu l w b (ix2 r j) := by
  show max _ _ = max _ _
  refine congrArg (fun v => max v zeroWord) ?_
  refine (Cert.LibDense.dense_apply wf l w (shapeCast (⟨2, ![1, N]⟩ : Shape) b hsc) hbc r j).trans ?_
  exact congrArg (fun v => (∑ k : Fin K, l (ix2 r k) * w (ix2 k j)) + v) (shapeCast_a_1a_apply b hsc 0 j)

/-- A dense layer without the rectifier on the vector unit, read at (r, j). -/
theorem plainLayer_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (b : FVec Ideal (⟨1, ![N]⟩ : Shape) .f32) (hsc : (⟨1, ![N]⟩ : Shape).ShapeCasts ⟨2, ![1, N]⟩)
    (hbc : (⟨2, ![1, N]⟩ : Shape).Broadcasts ⟨2, ![n, N]⟩) (r : Fin n) (j : Fin N) :
    addf (matmul (Cert.LibDense.plainOf wf) none l w (constant (⟨2, ![n, N]⟩ : Shape) .f32 0x00000000#32))
        (broadcastTo (⟨2, ![n, N]⟩ : Shape) (shapeCast (⟨2, ![1, N]⟩ : Shape) b hsc) hbc) (ix2 r j)
      = dense l w b (ix2 r j) := by
  refine (Cert.LibDense.dense_apply wf l w (shapeCast (⟨2, ![1, N]⟩ : Shape) b hsc) hbc r j).trans ?_
  exact congrArg (fun v => (∑ k : Fin K, l (ix2 r k) * w (ix2 k j)) + v) (shapeCast_a_1a_apply b hsc 0 j)

/-- The first kernel's stored value is the rectified dense layer of its loaded blocks. -/
theorem mmRelu_pay (x0 : Vec Ideal S2000x1024 .f32) (x1 : Vec Ideal S1024x256 .f32) (x2 : Vec Ideal S256 .f32) :
    k0_pay1 (F := Ideal) x0 x1 x2 = denseRelu x0 x1 x2 := by
  funext i
  obtain ⟨r, j, rfl⟩ : ∃ (r : Fin 2000) (j : Fin 256), i = ix2 r j := ⟨i 0, i 1, eq_ix2 i⟩
  exact reluLayer_apply dot_S2000x1024_S1024x256_S2000x256_1_0_0_1_n_n_wf
    (truncf .bf16 x0 bitsLt_bf16_f32) (truncf .bf16 x1 bitsLt_bf16_f32) x2 shapeCasts_S256_S1x256
    broadcasts_S1x256_S2000x256 r j

theorem mmRelu_pay1 (x0 : Vec Ideal S2000x1024 .f32) (x1 : Vec Ideal S1024x256 .f32) (x2 : Vec Ideal S256 .f32) :
    k1_pay1 (F := Ideal) x0 x1 x2 = denseRelu x0 x1 x2 := mmRelu_pay x0 x1 x2
theorem mmRelu_pay2 (x0 : Vec Ideal S2000x1024 .f32) (x1 : Vec Ideal S1024x256 .f32) (x2 : Vec Ideal S256 .f32) :
    k2_pay1 (F := Ideal) x0 x1 x2 = denseRelu x0 x1 x2 := mmRelu_pay x0 x1 x2
theorem mmRelu_pay3 (x0 : Vec Ideal S2000x1024 .f32) (x1 : Vec Ideal S1024x256 .f32) (x2 : Vec Ideal S256 .f32) :
    k3_pay1 (F := Ideal) x0 x1 x2 = denseRelu x0 x1 x2 := mmRelu_pay x0 x1 x2

/-- The second kernel's stored value is the update and projection of its loaded blocks. -/
theorem updProj_pay (x0 x1 : Vec Ideal S2000x256 .f32) (x2 : Vec Ideal S256x256 .f32) (x3 : Vec Ideal S256 .f32)
    (x4 : Vec Ideal S256x128 .f32) (x5 : Vec Ideal S128 .f32) :
    k4_pay1 (F := Ideal) x0 x1 x2 x3 x4 x5 = updProj x0 x1 x2 x3 x4 x5 := by
  have hin : (maximumf (addf (matmul dot_S2000x256_S256x256_S2000x256_1_0_0_1_n_n none
        (truncf .bf16 (addf (shapeCast S2000x256 x0 shapeCasts_S2000x256_S2000x256)
          (shapeCast S2000x256 x1 shapeCasts_S2000x256_S2000x256)) bitsLt_bf16_f32)
        (truncf .bf16 x2 bitsLt_bf16_f32) (constant S2000x256 .f32 0x00000000#32))
        (broadcastTo S2000x256 (shapeCast S1x256 x3 shapeCasts_S256_S1x256) broadcasts_S1x256_S2000x256))
        (broadcast S2000x256 (Scalar.ofBits (F := Ideal) .f32 0x00000000#32)) : FVec Ideal S2000x256 .f32)
      = denseRelu (addMat x0 x1) x2 x3 := by
    funext i
    obtain ⟨r, k, rfl⟩ : ∃ (r : Fin 2000) (k : Fin 256), i = ix2 r k := ⟨i 0, i 1, eq_ix2 i⟩
    rw [shapeCast_self, shapeCast_self]
    exact reluLayer_apply dot_S2000x256_S256x256_S2000x256_1_0_0_1_n_n_wf
      (truncf .bf16 (addf x0 x1) bitsLt_bf16_f32) (truncf .bf16 x2 bitsLt_bf16_f32) x3 shapeCasts_S256_S1x256
      broadcasts_S1x256_S2000x256 r k
  funext i
  obtain ⟨r, j, rfl⟩ : ∃ (r : Fin 2000) (j : Fin 128), i = ix2 r j := ⟨i 0, i 1, eq_ix2 i⟩
  unfold k4_pay1
  rw [hin]
  exact plainLayer_apply dot_S2000x256_S256x128_S2000x128_1_0_0_1_n_n_wf
    (truncf .bf16 (denseRelu (addMat x0 x1) x2 x3) bitsLt_bf16_f32) (truncf .bf16 x4 bitsLt_bf16_f32) x5
    shapeCasts_S128_S1x128 broadcasts_S1x128_S2000x128 r j

theorem updProj_pay5 (x0 x1 : Vec Ideal S2000x256 .f32) (x2 : Vec Ideal S256x256 .f32) (x3 : Vec Ideal S256 .f32)
    (x4 : Vec Ideal S256x128 .f32) (x5 : Vec Ideal S128 .f32) :
    k5_pay1 (F := Ideal) x0 x1 x2 x3 x4 x5 = updProj x0 x1 x2 x3 x4 x5 := updProj_pay x0 x1 x2 x3 x4 x5

end Cert.KernelIdeal.Layer

end
-- ==== Proof.Region0.lean ====
/-
  Region 0: a rectified dense layer, 2000 rows per grid point.

  Point t loads rows 2000 t … 2000 t + 1999 of the input (all 1024 columns), the whole weights and the whole bias, and
  writes rows 2000 t … 2000 t + 1999 of the output (all 256 columns).  The layer works row by row, so the block it writes
  is the same block of the layer applied to the whole input; the 25 blocks cover the 50000 rows, so the output array
  ends as the layer of the arrays the region finds.
-/
import proofs.«112475_j16947940950559_1_alg».proof.Proof.Gen.KernelIdeal.Frame
import proofs.«112475_j16947940950559_1_alg».proof.Proof.Layer

noncomputable section

namespace Cert.KernelIdeal.Region0

open Cert.KernelIdeal Cert.KernelIdeal.Gen Cert.KernelIdeal.Layer Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input rows, weights and bias as it finds them. -/
abbrev inX (c : Dev nD) : S50000x1024.Idx → EReal := V c main_arg0
abbrev inW (c : Dev nD) : S1024x256.Idx → EReal := V c main_arg4
abbrev inB (c : Dev nD) : S256.Idx → EReal := V c main_arg5

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks move with the point, everything else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Every row block is some point's. -/
theorem idx_onto : ∀ q : Fin 25, ∃ t : Fin cfg0.N, win0_3.index t = ![q.val, 0] :=
  (by decide +kernel : ∀ q : Fin 25, ∃ t : Fin grid0.N, win0_3.index t = ![q.val, 0])

/-- Row r of point t's block is row 2000 t + r of the array. -/
def rows (t : Fin cfg0.N) (r : Fin 2000) : Fin 50000 :=
  ⟨t.val * 2000 + r.val, by
    have h : t.val < grid0.N := t.isLt
    have hN : grid0.N = 25 := N_0
    have := r.isLt
    omega⟩

/-- The input block at point t is the rows of the point. -/
theorem blk0_eq (c : Dev nD) (t : Fin cfg0.N) : iblk0 V c 0 t = takeRows (inX V c) (rows t) := by
  obtain ⟨e0, e1, -, -, -, -, -⟩ := idx_facts t
  funext y
  show inX V c (((cfg0.win 0).blk t).view.emb y) = inX V c (ix2 (rows t (y 0)) (y 1))
  refine congrArg (inX V c) (funext fun a => Fin.ext ?_)
  match a with
  | ⟨0, _⟩ => show win0_0.index t (0 : Fin 2) * 2000 + 1 * (y 0).val = t.val * 2000 + (y 0).val; omega
  | ⟨1, _⟩ => show win0_0.index t (1 : Fin 2) * 1024 + 1 * (y 1).val = (y 1).val; omega

/-- The weights' block is the whole array at every point. -/
theorem blk1_eq (c : Dev nD) (t : Fin cfg0.N) : iblk0 V c 1 t = inW V c := by
  obtain ⟨-, -, e2, e3, -, -, -⟩ := idx_facts t
  funext y
  show inW V c (((cfg0.win 1).blk t).view.emb y) = inW V c y
  refine congrArg (inW V c) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-- The bias' block is the whole array at every point. -/
theorem blk2_eq (c : Dev nD) (t : Fin cfg0.N) : iblk0 V c 2 t = inB V c := by
  obtain ⟨-, -, -, -, e4, -, -⟩ := idx_facts t
  funext y
  show inB V c (((cfg0.win 2).blk t).view.emb y) = inB V c y
  refine congrArg (inB V c) (funext fun a => Fin.ext ?_)
  match a with
  | ⟨0, _⟩ => show win0_2.index t (0 : Fin 1) * 256 + 1 * (y 0).val = (y 0).val; omega

/-- An array read through the output's block at point t is its rows of the point. -/
theorem out_read (G : S50000x256.Idx → EReal) (t : Fin cfg0.N) :
    ((cfg0.win 3).blk t).view.read (Elt Ideal) G = takeRows G (rows t) := by
  obtain ⟨-, -, -, -, -, e5, e6⟩ := idx_facts t
  funext y
  show G (((cfg0.win 3).blk t).view.emb y) = G (ix2 (rows t (y 0)) (y 1))
  refine congrArg G (funext fun a => Fin.ext ?_)
  match a with
  | ⟨0, _⟩ => show win0_3.index t (0 : Fin 2) * 2000 + 1 * (y 0).val = t.val * 2000 + (y 0).val; omega
  | ⟨1, _⟩ => show win0_3.index t (1 : Fin 2) * 256 + 1 * (y 1).val = (y 1).val; omega

/-- WHAT POINT t WRITES BACK is block t of the layer of the arrays the region finds. -/
theorem flushed_eq (c : Dev nD) (t : Fin cfg0.N) :
    (dat0 V c).flushed 3 t
      = ((cfg0.win 3).blk t).view.read (Elt Ideal) (denseRelu (inX V c) (inW V c) (inB V c)) := by
  show (cfg0.win 3).cut (grid0.coords t) ((dat0 V c).after 3 t) = _
  rw [after0_3]
  unfold out0_3
  rw [View.canon_unit_zero hz2]
  simp only [View.ld_unit_zero (S := S2000x1024) hz2, View.ld_unit_zero (S := S1024x256) hz2,
    View.ld_unit_zero (S := S256) hz1]
  rw [mmRelu_pay (iblk0 V c 0 t) (iblk0 V c 1 t) (iblk0 V c 2 t), blk0_eq V c t, blk1_eq V c t, blk2_eq V c t,
    out_read, denseRelu_takeRows]
  rfl

/-- An index is in point t's block iff each coordinate is in the block's range. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v0).slice (win0_3.rect t)).set ↔ _
  rw [View.set_slice_whole, Rect.mem_set_unit]
  exact Iff.rfl

/-- Every index of the output is in the block of the point that holds its row. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- THE OUTPUT ARRAY after the region: the rectified dense layer of the arrays the region finds. -/
theorem final (c : Dev nD) :
    (dat0 V c).arrAt 3 cfg0.N = denseRelu (inX V c) (inW V c) (inB V c) :=
  (dat0 V c).arrAt_eq_of_cover 3 _ (fun t _ => flushed_eq V c t) cover

end Cert.KernelIdeal.Region0

end
-- ==== Proof.Region1.lean ====
/-
  Region 1: a rectified dense layer, 2000 rows per grid point.

  Point t loads rows 2000 t … 2000 t + 1999 of the input (all 1024 columns), the whole weights and the whole bias, and
  writes rows 2000 t … 2000 t + 1999 of the output (all 256 columns).  The layer works row by row, so the block it writes
  is the same block of the layer applied to the whole input; the 5 blocks cover the 10000 rows, so the output array
  ends as the layer of the arrays the region finds.
-/
import proofs.«112475_j16947940950559_1_alg».proof.Proof.Gen.KernelIdeal.Frame
import proofs.«112475_j16947940950559_1_alg».proof.Proof.Layer

noncomputable section

namespace Cert.KernelIdeal.Region1

open Cert.KernelIdeal Cert.KernelIdeal.Gen Cert.KernelIdeal.Layer Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input rows, weights and bias as it finds them. -/
abbrev inX (c : Dev nD) : S10000x1024.Idx → EReal := V c main_arg1
abbrev inW (c : Dev nD) : S1024x256.Idx → EReal := V c main_arg6
abbrev inB (c : Dev nD) : S256.Idx → EReal := V c main_arg7

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks move with the point, everything else stays at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Every row block is some point's. -/
theorem idx_onto : ∀ q : Fin 5, ∃ t : Fin cfg1.N, win1_3.index t = ![q.val, 0] :=
  (by decide +kernel : ∀ q : Fin 5, ∃ t : Fin grid1.N, win1_3.index t = ![q.val, 0])

/-- Row r of point t's block is row 2000 t + r of the array. -/
def rows (t : Fin cfg1.N) (r : Fin 2000) : Fin 10000 :=
  ⟨t.val * 2000 + r.val, by
    have h : t.val < grid1.N := t.isLt
    have hN : grid1.N = 5 := N_1
    have := r.isLt
    omega⟩

/-- The input block at point t is the rows of the point. -/
theorem blk0_eq (c : Dev nD) (t : Fin cfg1.N) : iblk1 V c 0 t = takeRows (inX V c) (rows t) := by
  obtain ⟨e0, e1, -, -, -, -, -⟩ := idx_facts t
  funext y
  show inX V c (((cfg1.win 0).blk t).view.emb y) = inX V c (ix2 (rows t (y 0)) (y 1))
  refine congrArg (inX V c) (funext fun a => Fin.ext ?_)
  match a with
  | ⟨0, _⟩ => show win1_0.index t (0 : Fin 2) * 2000 + 1 * (y 0).val = t.val * 2000 + (y 0).val; omega
  | ⟨1, _⟩ => show win1_0.index t (1 : Fin 2) * 1024 + 1 * (y 1).val = (y 1).val; omega

/-- The weights' block is the whole array at every point. -/
theorem blk1_eq (c : Dev nD) (t : Fin cfg1.N) : iblk1 V c 1 t = inW V c := by
  obtain ⟨-, -, e2, e3, -, -, -⟩ := idx_facts t
  funext y
  show inW V c (((cfg1.win 1).blk t).view.emb y) = inW V c y
  refine congrArg (inW V c) (funext fun a => Fin.ext ?_)
  match a with
  | ⟨0, _⟩ => show win1_1.index t (0 : Fin 2) * 1024 + 1 * (y 0).val = (y 0).val; omega
  | ⟨1, _⟩ => show win1_1.index t (1 : Fin 2) * 256 + 1 * (y 1).val = (y 1).val; omega

/-- The bias' block is the whole array at every point. -/
theorem blk2_eq (c : Dev nD) (t : Fin cfg1.N) : iblk1 V c 2 t = inB V c := by
  obtain ⟨-, -, -, -, e4, -, -⟩ := idx_facts t
  funext y
  show inB V c (((cfg1.win 2).blk t).view.emb y) = inB V c y
  refine congrArg (inB V c) (funext fun a => Fin.ext ?_)
  match a with
  | ⟨0, _⟩ => show win1_2.index t (0 : Fin 1) * 256 + 1 * (y 0).val = (y 0).val; omega

/-- An array read through the output's block at point t is its rows of the point. -/
theorem out_read (G : S10000x256.Idx → EReal) (t : Fin cfg1.N) :
    ((cfg1.win 3).blk t).view.read (Elt Ideal) G = takeRows G (rows t) := by
  obtain ⟨-, -, -, -, -, e5, e6⟩ := idx_facts t
  funext y
  show G (((cfg1.win 3).blk t).view.emb y) = G (ix2 (rows t (y 0)) (y 1))
  refine congrArg G (funext fun a => Fin.ext ?_)
  match a with
  | ⟨0, _⟩ => show win1_3.index t (0 : Fin 2) * 2000 + 1 * (y 0).val = t.val * 2000 + (y 0).val; omega
  | ⟨1, _⟩ => show win1_3.index t (1 : Fin 2) * 256 + 1 * (y 1).val = (y 1).val; omega

/-- WHAT POINT t WRITES BACK is block t of the layer of the arrays the region finds. -/
theorem flushed_eq (c : Dev nD) (t : Fin cfg1.N) :
    (dat1 V c).flushed 3 t
      = ((cfg1.win 3).blk t).view.read (Elt Ideal) (denseRelu (inX V c) (inW V c) (inB V c)) := by
  show (cfg1.win 3).cut (grid1.coords t) ((dat1 V c).after 3 t) = _
  rw [after1_3]
  unfold out1_3
  rw [View.canon_unit_zero hz2]
  simp only [View.ld_unit_zero (S := S2000x1024) hz2, View.ld_unit_zero (S := S1024x256) hz2,
    View.ld_unit_zero (S := S256) hz1]
  rw [mmRelu_pay1 (iblk1 V c 0 t) (iblk1 V c 1 t) (iblk1 V c 2 t), blk0_eq V c t, blk1_eq V c t, blk2_eq V c t,
    out_read, denseRelu_takeRows]
  rfl

/-- An index is in point t's block iff each coordinate is in the block's range. -/
theorem mem_blk (t : Fin cfg1.N) (i : S10000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v1).slice (win1_3.rect t)).set ↔ _
  rw [View.set_slice_whole, Rect.mem_set_unit]
  exact Iff.rfl

/-- Every index of the output is in the block of the point that holds its row. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 256 ≤ (i 1).val ∧ (i 1).val < win1_3.index t (1 : Fin 2) * 256 + 256
    omega

/-- THE OUTPUT ARRAY after the region: the rectified dense layer of the arrays the region finds. -/
theorem final (c : Dev nD) :
    (dat1 V c).arrAt 3 cfg1.N = denseRelu (inX V c) (inW V c) (inB V c) :=
  (dat1 V c).arrAt_eq_of_cover 3 _ (fun t _ => flushed_eq V c t) cover

end Cert.KernelIdeal.Region1

end
-- ==== Proof.Region2.lean ====
/-
  Region 2: a rectified dense layer, 2000 rows per grid point.

  Point t loads rows 2000 t … 2000 t + 1999 of the input (all 1024 columns), the whole weights and the whole bias, and
  writes rows 2000 t … 2000 t + 1999 of the output (all 256 columns).  The layer works row by row, so the block it writes
  is the same block of the layer applied to the whole input; the 5 blocks cover the 10000 rows, so the output array
  ends as the layer of the arrays the region finds.
-/
import proofs.«112475_j16947940950559_1_alg».proof.Proof.Gen.KernelIdeal.Frame
import proofs.«112475_j16947940950559_1_alg».proof.Proof.Layer

noncomputable section

namespace Cert.KernelIdeal.Region2

open Cert.KernelIdeal Cert.KernelIdeal.Gen Cert.KernelIdeal.Layer Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input rows, weights and bias as it finds them. -/
abbrev inX (c : Dev nD) : S10000x1024.Idx → EReal := V c main_arg1
abbrev inW (c : Dev nD) : S1024x256.Idx → EReal := V c main_arg8
abbrev inB (c : Dev nD) : S256.Idx → EReal := V c main_arg9

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks move with the point, everything else stays at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Every row block is some point's. -/
theorem idx_onto : ∀ q : Fin 5, ∃ t : Fin cfg2.N, win2_3.index t = ![q.val, 0] :=
  (by decide +kernel : ∀ q : Fin 5, ∃ t : Fin grid2.N, win2_3.index t = ![q.val, 0])

/-- Row r of point t's block is row 2000 t + r of the array. -/
def rows (t : Fin cfg2.N) (r : Fin 2000) : Fin 10000 :=
  ⟨t.val * 2000 + r.val, by
    have h : t.val < grid2.N := t.isLt
    have hN : grid2.N = 5 := N_2
    have := r.isLt
    omega⟩

/-- The input block at point t is the rows of the point. -/
theorem blk0_eq (c : Dev nD) (t : Fin cfg2.N) : iblk2 V c 0 t = takeRows (inX V c) (rows t) := by
  obtain ⟨e0, e1, -, -, -, -, -⟩ := idx_facts t
  funext y
  show inX V c (((cfg2.win 0).blk t).view.emb y) = inX V c (ix2 (rows t (y 0)) (y 1))
  refine congrArg (inX V c) (funext fun a => Fin.ext ?_)
  match a with
  | ⟨0, _⟩ => show win2_0.index t (0 : Fin 2) * 2000 + 1 * (y 0).val = t.val * 2000 + (y 0).val; omega
  | ⟨1, _⟩ => show win2_0.index t (1 : Fin 2) * 1024 + 1 * (y 1).val = (y 1).val; omega

/-- The weights' block is the whole array at every point. -/
theorem blk1_eq (c : Dev nD) (t : Fin cfg2.N) : iblk2 V c 1 t = inW V c := by
  obtain ⟨-, -, e2, e3, -, -, -⟩ := idx_facts t
  funext y
  show inW V c (((cfg2.win 1).blk t).view.emb y) = inW V c y
  refine congrArg (inW V c) (funext fun a => Fin.ext ?_)
  match a with
  | ⟨0, _⟩ => show win2_1.index t (0 : Fin 2) * 1024 + 1 * (y 0).val = (y 0).val; omega
  | ⟨1, _⟩ => show win2_1.index t (1 : Fin 2) * 256 + 1 * (y 1).val = (y 1).val; omega

/-- The bias' block is the whole array at every point. -/
theorem blk2_eq (c : Dev nD) (t : Fin cfg2.N) : iblk2 V c 2 t = inB V c := by
  obtain ⟨-, -, -, -, e4, -, -⟩ := idx_facts t
  funext y
  show inB V c (((cfg2.win 2).blk t).view.emb y) = inB V c y
  refine congrArg (inB V c) (funext fun a => Fin.ext ?_)
  match a with
  | ⟨0, _⟩ => show win2_2.index t (0 : Fin 1) * 256 + 1 * (y 0).val = (y 0).val; omega

/-- An array read through the output's block at point t is its rows of the point. -/
theorem out_read (G : S10000x256.Idx → EReal) (t : Fin cfg2.N) :
    ((cfg2.win 3).blk t).view.read (Elt Ideal) G = takeRows G (rows t) := by
  obtain ⟨-, -, -, -, -, e5, e6⟩ := idx_facts t
  funext y
  show G (((cfg2.win 3).blk t).view.emb y) = G (ix2 (rows t (y 0)) (y 1))
  refine congrArg G (funext fun a => Fin.ext ?_)
  match a with
  | ⟨0, _⟩ => show win2_3.index t (0 : Fin 2) * 2000 + 1 * (y 0).val = t.val * 2000 + (y 0).val; omega
  | ⟨1, _⟩ => show win2_3.index t (1 : Fin 2) * 256 + 1 * (y 1).val = (y 1).val; omega

/-- WHAT POINT t WRITES BACK is block t of the layer of the arrays the region finds. -/
theorem flushed_eq (c : Dev nD) (t : Fin cfg2.N) :
    (dat2 V c).flushed 3 t
      = ((cfg2.win 3).blk t).view.read (Elt Ideal) (denseRelu (inX V c) (inW V c) (inB V c)) := by
  show (cfg2.win 3).cut (grid2.coords t) ((dat2 V c).after 3 t) = _
  rw [after2_3]
  unfold out2_3
  rw [View.canon_unit_zero hz2]
  simp only [View.ld_unit_zero (S := S2000x1024) hz2, View.ld_unit_zero (S := S1024x256) hz2,
    View.ld_unit_zero (S := S256) hz1]
  rw [mmRelu_pay2 (iblk2 V c 0 t) (iblk2 V c 1 t) (iblk2 V c 2 t), blk0_eq V c t, blk1_eq V c t, blk2_eq V c t,
    out_read, denseRelu_takeRows]
  rfl

/-- An index is in point t's block iff each coordinate is in the block's range. -/
theorem mem_blk (t : Fin cfg2.N) (i : S10000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v2).slice (win2_3.rect t)).set ↔ _
  rw [View.set_slice_whole, Rect.mem_set_unit]
  exact Iff.rfl

/-- Every index of the output is in the block of the point that holds its row. -/
theorem cover (i : S10000x256.Idx) :
    ∃ t : Fin cfg2.N, (cfg2.win 3).flush t = true ∧ i ∈ ((cfg2.win 3).blk t).view.set := by
  have hi0 : (i 0).val < 10000 := (i 0).isLt
  have hi1 : (i 1).val < 256 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 256 ≤ (i 1).val ∧ (i 1).val < win2_3.index t (1 : Fin 2) * 256 + 256
    omega

/-- THE OUTPUT ARRAY after the region: the rectified dense layer of the arrays the region finds. -/
theorem final (c : Dev nD) :
    (dat2 V c).arrAt 3 cfg2.N = denseRelu (inX V c) (inW V c) (inB V c) :=
  (dat2 V c).arrAt_eq_of_cover 3 _ (fun t _ => flushed_eq V c t) cover

end Cert.KernelIdeal.Region2

end
-- ==== Proof.Region3.lean ====
/-
  Region 3: a rectified dense layer, 2000 rows per grid point.

  Point t loads rows 2000 t … 2000 t + 1999 of the input (all 1024 columns), the whole weights and the whole bias, and
  writes rows 2000 t … 2000 t + 1999 of the output (all 256 columns).  The layer works row by row, so the block it writes
  is the same block of the layer applied to the whole input; the 25 blocks cover the 50000 rows, so the output array
  ends as the layer of the arrays the region finds.
-/
import proofs.«112475_j16947940950559_1_alg».proof.Proof.Gen.KernelIdeal.Frame
import proofs.«112475_j16947940950559_1_alg».proof.Proof.Layer

noncomputable section

namespace Cert.KernelIdeal.Region3

open Cert.KernelIdeal Cert.KernelIdeal.Gen Cert.KernelIdeal.Layer Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input rows, weights and bias as it finds them. -/
abbrev inX (c : Dev nD) : S50000x1024.Idx → EReal := V c main_arg0
abbrev inW (c : Dev nD) : S1024x256.Idx → EReal := V c main_arg10
abbrev inB (c : Dev nD) : S256.Idx → EReal := V c main_arg11

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks move with the point, everything else stays at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Every row block is some point's. -/
theorem idx_onto : ∀ q : Fin 25, ∃ t : Fin cfg3.N, win3_3.index t = ![q.val, 0] :=
  (by decide +kernel : ∀ q : Fin 25, ∃ t : Fin grid3.N, win3_3.index t = ![q.val, 0])

/-- Row r of point t's block is row 2000 t + r of the array. -/
def rows (t : Fin cfg3.N) (r : Fin 2000) : Fin 50000 :=
  ⟨t.val * 2000 + r.val, by
    have h : t.val < grid3.N := t.isLt
    have hN : grid3.N = 25 := N_3
    have := r.isLt
    omega⟩

/-- The input block at point t is the rows of the point. -/
theorem blk0_eq (c : Dev nD) (t : Fin cfg3.N) : iblk3 V c 0 t = takeRows (inX V c) (rows t) := by
  obtain ⟨e0, e1, -, -, -, -, -⟩ := idx_facts t
  funext y
  show inX V c (((cfg3.win 0).blk t).view.emb y) = inX V c (ix2 (rows t (y 0)) (y 1))
  refine congrArg (inX V c) (funext fun a => Fin.ext ?_)
  match a with
  | ⟨0, _⟩ => show win3_0.index t (0 : Fin 2) * 2000 + 1 * (y 0).val = t.val * 2000 + (y 0).val; omega
  | ⟨1, _⟩ => show win3_0.index t (1 : Fin 2) * 1024 + 1 * (y 1).val = (y 1).val; omega

/-- The weights' block is the whole array at every point. -/
theorem blk1_eq (c : Dev nD) (t : Fin cfg3.N) : iblk3 V c 1 t = inW V c := by
  obtain ⟨-, -, e2, e3, -, -, -⟩ := idx_facts t
  funext y
  show inW V c (((cfg3.win 1).blk t).view.emb y) = inW V c y
  refine congrArg (inW V c) (funext fun a => Fin.ext ?_)
  match a with
  | ⟨0, _⟩ => show win3_1.index t (0 : Fin 2) * 1024 + 1 * (y 0).val = (y 0).val; omega
  | ⟨1, _⟩ => show win3_1.index t (1 : Fin 2) * 256 + 1 * (y 1).val = (y 1).val; omega

/-- The bias' block is the whole array at every point. -/
theorem blk2_eq (c : Dev nD) (t : Fin cfg3.N) : iblk3 V c 2 t = inB V c := by
  obtain ⟨-, -, -, -, e4, -, -⟩ := idx_facts t
  funext y
  show inB V c (((cfg3.win 2).blk t).view.emb y) = inB V c y
  refine congrArg (inB V c) (funext fun a => Fin.ext ?_)
  match a with
  | ⟨0, _⟩ => show win3_2.index t (0 : Fin 1) * 256 + 1 * (y 0).val = (y 0).val; omega

/-- An array read through the output's block at point t is its rows of the point. -/
theorem out_read (G : S50000x256.Idx → EReal) (t : Fin cfg3.N) :
    ((cfg3.win 3).blk t).view.read (Elt Ideal) G = takeRows G (rows t) := by
  obtain ⟨-, -, -, -, -, e5, e6⟩ := idx_facts t
  funext y
  show G (((cfg3.win 3).blk t).view.emb y) = G (ix2 (rows t (y 0)) (y 1))
  refine congrArg G (funext fun a => Fin.ext ?_)
  match a with
  | ⟨0, _⟩ => show win3_3.index t (0 : Fin 2) * 2000 + 1 * (y 0).val = t.val * 2000 + (y 0).val; omega
  | ⟨1, _⟩ => show win3_3.index t (1 : Fin 2) * 256 + 1 * (y 1).val = (y 1).val; omega

/-- WHAT POINT t WRITES BACK is block t of the layer of the arrays the region finds. -/
theorem flushed_eq (c : Dev nD) (t : Fin cfg3.N) :
    (dat3 V c).flushed 3 t
      = ((cfg3.win 3).blk t).view.read (Elt Ideal) (denseRelu (inX V c) (inW V c) (inB V c)) := by
  show (cfg3.win 3).cut (grid3.coords t) ((dat3 V c).after 3 t) = _
  rw [after3_3]
  unfold out3_3
  rw [View.canon_unit_zero hz2]
  simp only [View.ld_unit_zero (S := S2000x1024) hz2, View.ld_unit_zero (S := S1024x256) hz2,
    View.ld_unit_zero (S := S256) hz1]
  rw [mmRelu_pay3 (iblk3 V c 0 t) (iblk3 V c 1 t) (iblk3 V c 2 t), blk0_eq V c t, blk1_eq V c t, blk2_eq V c t,
    out_read, denseRelu_takeRows]
  rfl

/-- An index is in point t's block iff each coordinate is in the block's range. -/
theorem mem_blk (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v3).slice (win3_3.rect t)).set ↔ _
  rw [View.set_slice_whole, Rect.mem_set_unit]
  exact Iff.rfl

/-- Every index of the output is in the block of the point that holds its row. -/
theorem cover (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ := idx_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 256 ≤ (i 1).val ∧ (i 1).val < win3_3.index t (1 : Fin 2) * 256 + 256
    omega

/-- THE OUTPUT ARRAY after the region: the rectified dense layer of the arrays the region finds. -/
theorem final (c : Dev nD) :
    (dat3 V c).arrAt 3 cfg3.N = denseRelu (inX V c) (inW V c) (inB V c) :=
  (dat3 V c).arrAt_eq_of_cover 3 _ (fun t _ => flushed_eq V c t) cover

end Cert.KernelIdeal.Region3

end
-- ==== Proof.Region4.lean ====
/-
  Region 4: update and projection, 2000 rows per grid point.

  Point t loads rows 2000 t … 2000 t + 1999 of the aggregate and of the initial projection (all 256 columns), the two
  weight matrices and the two biases whole, and writes rows 2000 t … 2000 t + 1999 of the output (all 128 columns).  Both
  layers work row by row, so the block written is the same block of the whole-array function; the 25 blocks cover the
  50000 rows.
-/
import proofs.«112475_j16947940950559_1_alg».proof.Proof.Gen.KernelIdeal.Frame
import proofs.«112475_j16947940950559_1_alg».proof.Proof.Layer

noncomputable section

namespace Cert.KernelIdeal.Region4

open Cert.KernelIdeal Cert.KernelIdeal.Gen Cert.KernelIdeal.Layer Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's aggregate, initial rows, weights and biases as it finds them. -/
abbrev inAgg (c : Dev nD) : S50000x256.Idx → EReal := V c main_v13
abbrev inInit (c : Dev nD) : S50000x256.Idx → EReal := V c main_v0
abbrev inW1 (c : Dev nD) : S256x256.Idx → EReal := V c main_arg12
abbrev inB1 (c : Dev nD) : S256.Idx → EReal := V c main_arg13
abbrev inW2 (c : Dev nD) : S256x128.Idx → EReal := V c main_arg16
abbrev inB2 (c : Dev nD) : S128.Idx → EReal := V c main_arg17

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks move with the point, everything else stays at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Every row block is some point's. -/
theorem idx_onto : ∀ q : Fin 25, ∃ t : Fin cfg4.N, win4_6.index t = ![q.val, 0] :=
  (by decide +kernel : ∀ q : Fin 25, ∃ t : Fin grid4.N, win4_6.index t = ![q.val, 0])

/-- Row r of point t's block is row 2000 t + r of the array. -/
def rows (t : Fin cfg4.N) (r : Fin 2000) : Fin 50000 :=
  ⟨t.val * 2000 + r.val, by
    have h : t.val < grid4.N := t.isLt
    have hN : grid4.N = 25 := N_4
    have := r.isLt
    omega⟩

theorem blk0_eq (c : Dev nD) (t : Fin cfg4.N) : iblk4 V c 0 t = takeRows (inAgg V c) (rows t) := by
  obtain ⟨e0, e1, -⟩ := idx_facts t
  funext y
  show inAgg V c (((cfg4.win 0).blk t).view.emb y) = inAgg V c (ix2 (rows t (y 0)) (y 1))
  refine congrArg (inAgg V c) (funext fun a => Fin.ext ?_)
  match a with
  | ⟨0, _⟩ => show win4_0.index t (0 : Fin 2) * 2000 + 1 * (y 0).val = t.val * 2000 + (y 0).val; omega
  | ⟨1, _⟩ => show win4_0.index t (1 : Fin 2) * 256 + 1 * (y 1).val = (y 1).val; omega

theorem blk1_eq (c : Dev nD) (t : Fin cfg4.N) : iblk4 V c 1 t = takeRows (inInit V c) (rows t) := by
  obtain ⟨-, -, e0, e1, -⟩ := idx_facts t
  funext y
  show inInit V c (((cfg4.win 1).blk t).view.emb y) = inInit V c (ix2 (rows t (y 0)) (y 1))
  refine congrArg (inInit V c) (funext fun a => Fin.ext ?_)
  match a with
  | ⟨0, _⟩ => show win4_1.index t (0 : Fin 2) * 2000 + 1 * (y 0).val = t.val * 2000 + (y 0).val; omega
  | ⟨1, _⟩ => show win4_1.index t (1 : Fin 2) * 256 + 1 * (y 1).val = (y 1).val; omega

theorem blk2_eq (c : Dev nD) (t : Fin cfg4.N) : iblk4 V c 2 t = inW1 V c := by
  obtain ⟨-, -, -, -, e0, e1, -⟩ := idx_facts t
  funext y
  show inW1 V c (((cfg4.win 2).blk t).view.emb y) = inW1 V c y
  refine congrArg (inW1 V c) (funext fun a => Fin.ext ?_)
  match a with
  | ⟨0, _⟩ => show win4_2.index t (0 : Fin 2) * 256 + 1 * (y 0).val = (y 0).val; omega
  | ⟨1, _⟩ => show win4_2.index t (1 : Fin 2) * 256 + 1 * (y 1).val = (y 1).val; omega

theorem blk3_eq (c : Dev nD) (t : Fin cfg4.N) : iblk4 V c 3 t = inB1 V c := by
  obtain ⟨-, -, -, -, -, -, e0, -⟩ := idx_facts t
  funext y
  show inB1 V c (((cfg4.win 3).blk t).view.emb y) = inB1 V c y
  refine congrArg (inB1 V c) (funext fun a => Fin.ext ?_)
  match a with
  | ⟨0, _⟩ => show win4_3.index t (0 : Fin 1) * 256 + 1 * (y 0).val = (y 0).val; omega

theorem blk4_eq (c : Dev nD) (t : Fin cfg4.N) : iblk4 V c 4 t = inW2 V c := by
  obtain ⟨-, -, -, -, -, -, -, e0, e1, -⟩ := idx_facts t
  funext y
  show inW2 V c (((cfg4.win 4).blk t).view.emb y) = inW2 V c y
  refine congrArg (inW2 V c) (funext fun a => Fin.ext ?_)
  match a with
  | ⟨0, _⟩ => show win4_4.index t (0 : Fin 2) * 256 + 1 * (y 0).val = (y 0).val; omega
  | ⟨1, _⟩ => show win4_4.index t (1 : Fin 2) * 128 + 1 * (y 1).val = (y 1).val; omega

theorem blk5_eq (c : Dev nD) (t : Fin cfg4.N) : iblk4 V c 5 t = inB2 V c := by
  obtain ⟨-, -, -, -, -, -, -, -, -, e0, -⟩ := idx_facts t
  funext y
  show inB2 V c (((cfg4.win 5).blk t).view.emb y) = inB2 V c y
  refine congrArg (inB2 V c) (funext fun a => Fin.ext ?_)
  match a with
  | ⟨0, _⟩ => show win4_5.index t (0 : Fin 1) * 128 + 1 * (y 0).val = (y 0).val; omega

/-- An array read through the output's block at point t is its rows of the point. -/
theorem out_read (G : S50000x128.Idx → EReal) (t : Fin cfg4.N) :
    ((cfg4.win 6).blk t).view.read (Elt Ideal) G = takeRows G (rows t) := by
  obtain ⟨-, -, -, -, -, -, -, -, -, -, e5, e6⟩ := idx_facts t
  funext y
  show G (((cfg4.win 6).blk t).view.emb y) = G (ix2 (rows t (y 0)) (y 1))
  refine congrArg G (funext fun a => Fin.ext ?_)
  match a with
  | ⟨0, _⟩ => show win4_6.index t (0 : Fin 2) * 2000 + 1 * (y 0).val = t.val * 2000 + (y 0).val; omega
  | ⟨1, _⟩ => show win4_6.index t (1 : Fin 2) * 128 + 1 * (y 1).val = (y 1).val; omega

/-- WHAT POINT t WRITES BACK is block t of the update and projection of the arrays the region finds. -/
theorem flushed_eq (c : Dev nD) (t : Fin cfg4.N) :
    (dat4 V c).flushed 6 t
      = ((cfg4.win 6).blk t).view.read (Elt Ideal)
          (updProj (inAgg V c) (inInit V c) (inW1 V c) (inB1 V c) (inW2 V c) (inB2 V c)) := by
  show (cfg4.win 6).cut (grid4.coords t) ((dat4 V c).after 6 t) = _
  rw [after4_6]
  unfold out4_6
  rw [View.canon_unit_zero hz2]
  simp only [View.ld_unit_zero (S := S2000x256) hz2, View.ld_unit_zero (S := S256x256) hz2,
    View.ld_unit_zero (S := S256x128) hz2, View.ld_unit_zero (S := S256) hz1, View.ld_unit_zero (S := S128) hz1]
  rw [updProj_pay (iblk4 V c 0 t) (iblk4 V c 1 t) (iblk4 V c 2 t) (iblk4 V c 3 t) (iblk4 V c 4 t) (iblk4 V c 5 t),
    blk0_eq V c t, blk1_eq V c t, blk2_eq V c t, blk3_eq V c t, blk4_eq V c t, blk5_eq V c t, out_read]
  rfl

theorem mem_blk (t : Fin cfg4.N) (i : S50000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v24).slice (win4_6.rect t)).set ↔ _
  rw [View.set_slice_whole, Rect.mem_set_unit]
  exact Iff.rfl

theorem cover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ := idx_onto ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [mem_blk]
  intro a
  match a with
  | ⟨0, _⟩ =>
    show win4_6.index t (0 : Fin 2) * 2000 ≤ (i 0).val ∧ (i 0).val < win4_6.index t (0 : Fin 2) * 2000 + 2000
    omega
  | ⟨1, _⟩ =>
    show win4_6.index t (1 : Fin 2) * 128 ≤ (i 1).val ∧ (i 1).val < win4_6.index t (1 : Fin 2) * 128 + 128
    omega

/-- THE OUTPUT ARRAY after the region: the update and projection of the arrays the region finds. -/
theorem final (c : Dev nD) :
    (dat4 V c).arrAt 6 cfg4.N
      = updProj (inAgg V c) (inInit V c) (inW1 V c) (inB1 V c) (inW2 V c) (inB2 V c) :=
  (dat4 V c).arrAt_eq_of_cover 6 _ (fun t _ => flushed_eq V c t) cover

end Cert.KernelIdeal.Region4

end
-- ==== Proof.Region5.lean ====
/-
  Region 5: update and projection, 2000 rows per grid point.

  Point t loads rows 2000 t … 2000 t + 1999 of the aggregate and of the initial projection (all 256 columns), the two
  weight matrices and the two biases whole, and writes rows 2000 t … 2000 t + 1999 of the output (all 128 columns).  Both
  layers work row by row, so the block written is the same block of the whole-array function; the 5 blocks cover the
  10000 rows.
-/
import proofs.«112475_j16947940950559_1_alg».proof.Proof.Gen.KernelIdeal.Frame
import proofs.«112475_j16947940950559_1_alg».proof.Proof.Layer

noncomputable section

namespace Cert.KernelIdeal.Region5

open Cert.KernelIdeal Cert.KernelIdeal.Gen Cert.KernelIdeal.Layer Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's aggregate, initial rows, weights and biases as it finds them. -/
abbrev inAgg (c : Dev nD) : S10000x256.Idx → EReal := V c main_v23
abbrev inInit (c : Dev nD) : S10000x256.Idx → EReal := V c main_v1
abbrev inW1 (c : Dev nD) : S256x256.Idx → EReal := V c main_arg14
abbrev inB1 (c : Dev nD) : S256.Idx → EReal := V c main_arg15
abbrev inW2 (c : Dev nD) : S256x128.Idx → EReal := V c main_arg18
abbrev inB2 (c : Dev nD) : S128.Idx → EReal := V c main_arg19

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks move with the point, everything else stays at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- Every row block is some point's. -/
theorem idx_onto : ∀ q : Fin 5, ∃ t : Fin cfg5.N, win5_6.index t = ![q.val, 0] :=
  (by decide +kernel : ∀ q : Fin 5, ∃ t : Fin grid5.N, win5_6.index t = ![q.val, 0])

/-- Row r of point t's block is row 2000 t + r of the array. -/
def rows (t : Fin cfg5.N) (r : Fin 2000) : Fin 10000 :=
  ⟨t.val * 2000 + r.val, by
    have h : t.val < grid5.N := t.isLt
    have hN : grid5.N = 5 := N_5
    have := r.isLt
    omega⟩

theorem blk0_eq (c : Dev nD) (t : Fin cfg5.N) : iblk5 V c 0 t = takeRows (inAgg V c) (rows t) := by
  obtain ⟨e0, e1, -⟩ := idx_facts t
  funext y
  show inAgg V c (((cfg5.win 0).blk t).view.emb y) = inAgg V c (ix2 (rows t (y 0)) (y 1))
  refine congrArg (inAgg V c) (funext fun a => Fin.ext ?_)
  match a with
  | ⟨0, _⟩ => show win5_0.index t (0 : Fin 2) * 2000 + 1 * (y 0).val = t.val * 2000 + (y 0).val; omega
  | ⟨1, _⟩ => show win5_0.index t (1 : Fin 2) * 256 + 1 * (y 1).val = (y 1).val; omega

theorem blk1_eq (c : Dev nD) (t : Fin cfg5.N) : iblk5 V c 1 t = takeRows (inInit V c) (rows t) := by
  obtain ⟨-, -, e0, e1, -⟩ := idx_facts t
  funext y
  show inInit V c (((cfg5.win 1).blk t).view.emb y) = inInit V c (ix2 (rows t (y 0)) (y 1))
  refine congrArg (inInit V c) (funext fun a => Fin.ext ?_)
  match a with
  | ⟨0, _⟩ => show win5_1.index t (0 : Fin 2) * 2000 + 1 * (y 0).val = t.val * 2000 + (y 0).val; omega
  | ⟨1, _⟩ => show win5_1.index t (1 : Fin 2) * 256 + 1 * (y 1).val = (y 1).val; omega

theorem blk2_eq (c : Dev nD) (t : Fin cfg5.N) : iblk5 V c 2 t = inW1 V c := by
  obtain ⟨-, -, -, -, e0, e1, -⟩ := idx_facts t
  funext y
  show inW1 V c (((cfg5.win 2).blk t).view.emb y) = inW1 V c y
  refine congrArg (inW1 V c) (funext fun a => Fin.ext ?_)
  match a with
  | ⟨0, _⟩ => show win5_2.index t (0 : Fin 2) * 256 + 1 * (y 0).val = (y 0).val; omega
  | ⟨1, _⟩ => show win5_2.index t (1 : Fin 2) * 256 + 1 * (y 1).val = (y 1).val; omega

theorem blk3_eq (c : Dev nD) (t : Fin cfg5.N) : iblk5 V c 3 t = inB1 V c := by
  obtain ⟨-, -, -, -, -, -, e0, -⟩ := idx_facts t
  funext y
  show inB1 V c (((cfg5.win 3).blk t).view.emb y) = inB1 V c y
  refine congrArg (inB1 V c) (funext fun a => Fin.ext ?_)
  match a with
  | ⟨0, _⟩ => show win5_3.index t (0 : Fin 1) * 256 + 1 * (y 0).val = (y 0).val; omega

theorem blk4_eq (c : Dev nD) (t : Fin cfg5.N) : iblk5 V c 4 t = inW2 V c := by
  obtain ⟨-, -, -, -, -, -, -, e0, e1, -⟩ := idx_facts t
  funext y
  show inW2 V c (((cfg5.win 4).blk t).view.emb y) = inW2 V c y
  refine congrArg (inW2 V c) (funext fun a => Fin.ext ?_)
  match a with
  | ⟨0, _⟩ => show win5_4.index t (0 : Fin 2) * 256 + 1 * (y 0).val = (y 0).val; omega
  | ⟨1, _⟩ => show win5_4.index t (1 : Fin 2) * 128 + 1 * (y 1).val = (y 1).val; omega

theorem blk5_eq (c : Dev nD) (t : Fin cfg5.N) : iblk5 V c 5 t = inB2 V c := by
  obtain ⟨-, -, -, -, -, -, -, -, -, e0, -⟩ := idx_facts t
  funext y
  show inB2 V c (((cfg5.win 5).blk t).view.emb y) = inB2 V c y
  refine congrArg (inB2 V c) (funext fun a => Fin.ext ?_)
  match a with
  | ⟨0, _⟩ => show win5_5.index t (0 : Fin 1) * 128 + 1 * (y 0).val = (y 0).val; omega

/-- An array read through the output's block at point t is its rows of the point. -/
theorem out_read (G : S10000x128.Idx → EReal) (t : Fin cfg5.N) :
    ((cfg5.win 6).blk t).view.read (Elt Ideal) G = takeRows G (rows t) := by
  obtain ⟨-, -, -, -, -, -, -, -, -, -, e5, e6⟩ := idx_facts t
  funext y
  show G (((cfg5.win 6).blk t).view.emb y) = G (ix2 (rows t (y 0)) (y 1))
  refine congrArg G (funext fun a => Fin.ext ?_)
  match a with
  | ⟨0, _⟩ => show win5_6.index t (0 : Fin 2) * 2000 + 1 * (y 0).val = t.val * 2000 + (y 0).val; omega
  | ⟨1, _⟩ => show win5_6.index t (1 : Fin 2) * 128 + 1 * (y 1).val = (y 1).val; omega

/-- WHAT POINT t WRITES BACK is block t of the update and projection of the arrays the region finds. -/
theorem flushed_eq (c : Dev nD) (t : Fin cfg5.N) :
    (dat5 V c).flushed 6 t
      = ((cfg5.win 6).blk t).view.read (Elt Ideal)
          (updProj (inAgg V c) (inInit V c) (inW1 V c) (inB1 V c) (inW2 V c) (inB2 V c)) := by
  show (cfg5.win 6).cut (grid5.coords t) ((dat5 V c).after 6 t) = _
  rw [after5_6]
  unfold out5_6
  rw [View.canon_unit_zero hz2]
  simp only [View.ld_unit_zero (S := S2000x256) hz2, View.ld_unit_zero (S := S256x256) hz2,
    View.ld_unit_zero (S := S256x128) hz2, View.ld_unit_zero (S := S256) hz1, View.ld_unit_zero (S := S128) hz1]
  rw [updProj_pay5 (iblk5 V c 0 t) (iblk5 V c 1 t) (iblk5 V c 2 t) (iblk5 V c 3 t) (iblk5 V c 4 t) (iblk5 V c 5 t),
    blk0_eq V c t, blk1_eq V c t, blk2_eq V c t, blk3_eq V c t, blk4_eq V c t, blk5_eq V c t, out_read]
  rfl

theorem mem_blk (t : Fin cfg5.N) (i : S10000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v25).slice (win5_6.rect t)).set ↔ _
  rw [View.set_slice_whole, Rect.mem_set_unit]
  exact Iff.rfl

theorem cover (i : S10000x128.Idx) :
    ∃ t : Fin cfg5.N, (cfg5.win 6).flush t = true ∧ i ∈ ((cfg5.win 6).blk t).view.set := by
  have hi0 : (i 0).val < 10000 := (i 0).isLt
  have hi1 : (i 1).val < 128 := (i 1).isLt
  obtain ⟨t, ht⟩ := idx_onto ⟨(i 0).val / 2000, by omega⟩
  have q0 : win5_6.index t (0 : Fin 2) = (i 0).val / 2000 := congrFun ht 0
  have q1 : win5_6.index t (1 : Fin 2) = 0 := congrFun ht 1
  refine ⟨t, flush5_6 t, ?_⟩
  rw [mem_blk]
  intro a
  match a with
  | ⟨0, _⟩ =>
    show win5_6.index t (0 : Fin 2) * 2000 ≤ (i 0).val ∧ (i 0).val < win5_6.index t (0 : Fin 2) * 2000 + 2000
    omega
  | ⟨1, _⟩ =>
    show win5_6.index t (1 : Fin 2) * 128 ≤ (i 1).val ∧ (i 1).val < win5_6.index t (1 : Fin 2) * 128 + 128
    omega

/-- THE OUTPUT ARRAY after the region: the update and projection of the arrays the region finds. -/
theorem final (c : Dev nD) :
    (dat5 V c).arrAt 6 cfg5.N
      = updProj (inAgg V c) (inInit V c) (inW1 V c) (inB1 V c) (inW2 V c) (inB2 V c) :=
  (dat5 V c).arrAt_eq_of_cover 6 _ (fun t _ => flushed_eq V c t) cover

end Cert.KernelIdeal.Region5

end
-- ==== Proof.KValue.lean ====
/-
  The idealized kernel's two results as the specification's embeddings of the launch arguments.

  The first four regions each leave a rectified dense layer of two arguments and a bias.  The host stretch takes, per
  edge, the sender's row of a message table (the sender's index wrapped when negative and clamped) and sums the rows
  into their receivers.  The last two regions apply update and projection to the aggregate and the initial layer.
  Followed back through the boundaries, every input of every region is a launch argument or an earlier region's output.
-/
import proofs.«112475_j16947940950559_1_alg».proof.Proof.KChain
import proofs.«112475_j16947940950559_1_alg».proof.Proof.HostLayer
import proofs.«112475_j16947940950559_1_alg».proof.Proof.Region0
import proofs.«112475_j16947940950559_1_alg».proof.Proof.Region1
import proofs.«112475_j16947940950559_1_alg».proof.Proof.Region2
import proofs.«112475_j16947940950559_1_alg».proof.Proof.Region3
import proofs.«112475_j16947940950559_1_alg».proof.Proof.Region4
import proofs.«112475_j16947940950559_1_alg».proof.Proof.Region5
import Idealize.ShloMosaic.Lib.StableHlo.Run

noncomputable section

namespace Cert.KernelIdeal.KValue

open Cert.KernelIdeal Cert.KernelIdeal.Gen Cert.KernelIdeal.KChain Cert.Spec
open Idealize.ShloMosaic Idealize.ShloMosaic.TcCoe Idealize.ShloMosaic.ValueIdx Idealize.SL.Sem Idealize.ShloMosaic.StableHlo
open Idealize.ShloMosaic.Pipeline (Dat Cfg Window)

theorem denseRelu_congr {n K N : Nat} {x x' : (⟨2, ![n, K]⟩ : Shape).Idx → EReal}
    {w w' : (⟨2, ![K, N]⟩ : Shape).Idx → EReal} {b b' : (⟨1, ![N]⟩ : Shape).Idx → EReal}
    (hx : x = x') (hw : w = w') (hb : b = b') : denseRelu x w b = denseRelu x' w' b' := by
  subst hx hw hb; rfl

theorem updProj_congr {n H O : Nat} {a a' i i' : (⟨2, ![n, H]⟩ : Shape).Idx → EReal}
    {w1 w1' : (⟨2, ![H, H]⟩ : Shape).Idx → EReal} {b1 b1' : (⟨1, ![H]⟩ : Shape).Idx → EReal}
    {w2 w2' : (⟨2, ![H, O]⟩ : Shape).Idx → EReal} {b2 b2' : (⟨1, ![O]⟩ : Shape).Idx → EReal}
    (ha : a = a') (hi : i = i') (h1 : w1 = w1') (h2 : b1 = b1') (h3 : w2 = w2') (h4 : b2 = b2') :
    updProj a i w1 b1 w2 b2 = updProj a' i' w1' b1' w2' b2' := by
  subst ha hi h1 h2 h3 h4; rfl

/-- The scatter-add of per-edge rows into their 50000 receivers, from zeros: one function of the rows, never opened. -/
def scatU (a2 : IVec S200000 32) : (S200000x256.Idx → EReal) → S50000x256.Idx → EReal :=
  fun u => Host.scatterAdd (F := Ideal) scatter_S50000x256_S200000x1_S200000x256_1_0_0_1
    (broadcastInDim S50000x256 ![] bcast_S_S50000x256 (constant (F := Ideal) S_ .f32 0x00000000#32))
    (broadcastInDim S200000x1 ![0] bcast_S200000_S200000x1_0 a2) u

/-- The start indices of the gather: a negative sender index wrapped by 10000, as a column. -/
def startU (a3 : IVec S200000 32) : IVec S200000x1 32 :=
  broadcastInDim S200000x1 ![0] bcast_S200000_S200000x1_0 (select (cmpi .slt a3 (broadcastInDim S200000 ![] bcast_S_S200000 (constantI S_ 32 0#32))) (addi a3 (broadcastInDim S200000 ![] bcast_S_S200000 (constantI S_ 32 10000#32))) a3)

/-- The sender row each edge reads: its start index clamped into the 10000 rows. -/
def rowsU (a3 : IVec S200000 32) : Fin 200000 → Fin 10000 :=
  fun e => ⟨Cert.LibGather.rowOf 10000 (startU a3) e, Cert.LibGather.rowOf_lt (by decide) (startU a3) e⟩

/-- The scatter-add of per-edge rows into their 10000 receivers, from zeros: one function of the rows, never opened. -/
def scatD (a3 : IVec S200000 32) : (S200000x256.Idx → EReal) → S10000x256.Idx → EReal :=
  fun u => Host.scatterAdd (F := Ideal) scatter_S10000x256_S200000x1_S200000x256_1_0_0_1
    (broadcastInDim S10000x256 ![] bcast_S_S10000x256 (constant (F := Ideal) S_ .f32 0x00000000#32))
    (broadcastInDim S200000x1 ![0] bcast_S200000_S200000x1_0 a3) u

/-- The start indices of the gather: a negative sender index wrapped by 50000, as a column. -/
def startD (a2 : IVec S200000 32) : IVec S200000x1 32 :=
  broadcastInDim S200000x1 ![0] bcast_S200000_S200000x1_0 (select (cmpi .slt a2 (broadcastInDim S200000 ![] bcast_S_S200000 (constantI S_ 32 0#32))) (addi a2 (broadcastInDim S200000 ![] bcast_S_S200000 (constantI S_ 32 50000#32))) a2)

/-- The sender row each edge reads: its start index clamped into the 50000 rows. -/
def rowsD (a2 : IVec S200000 32) : Fin 200000 → Fin 50000 :=
  fun e => ⟨Cert.LibGather.rowOf 50000 (startD a2) e, Cert.LibGather.rowOf_lt (by decide) (startD a2) e⟩

variable (m : (ℓ : Loc nD τ sig) → Buf (Elt Ideal) ℓ) (ρ : Dev nD → PrngReg)

/-- The launch arguments, as arrays. -/
abbrev A0 (c : Dev nD) : S50000x1024.Idx → EReal := m ((c : Thread nD τ).loc main_arg0)
abbrev A1 (c : Dev nD) : S10000x1024.Idx → EReal := m ((c : Thread nD τ).loc main_arg1)
abbrev A4 (c : Dev nD) : S1024x256.Idx → EReal := m ((c : Thread nD τ).loc main_arg4)
abbrev A5 (c : Dev nD) : S256.Idx → EReal := m ((c : Thread nD τ).loc main_arg5)
abbrev A6 (c : Dev nD) : S1024x256.Idx → EReal := m ((c : Thread nD τ).loc main_arg6)
abbrev A7 (c : Dev nD) : S256.Idx → EReal := m ((c : Thread nD τ).loc main_arg7)
abbrev A8 (c : Dev nD) : S1024x256.Idx → EReal := m ((c : Thread nD τ).loc main_arg8)
abbrev A9 (c : Dev nD) : S256.Idx → EReal := m ((c : Thread nD τ).loc main_arg9)
abbrev A10 (c : Dev nD) : S1024x256.Idx → EReal := m ((c : Thread nD τ).loc main_arg10)
abbrev A11 (c : Dev nD) : S256.Idx → EReal := m ((c : Thread nD τ).loc main_arg11)
abbrev A12 (c : Dev nD) : S256x256.Idx → EReal := m ((c : Thread nD τ).loc main_arg12)
abbrev A13 (c : Dev nD) : S256.Idx → EReal := m ((c : Thread nD τ).loc main_arg13)
abbrev A14 (c : Dev nD) : S256x256.Idx → EReal := m ((c : Thread nD τ).loc main_arg14)
abbrev A15 (c : Dev nD) : S256.Idx → EReal := m ((c : Thread nD τ).loc main_arg15)
abbrev A16 (c : Dev nD) : S256x128.Idx → EReal := m ((c : Thread nD τ).loc main_arg16)
abbrev A17 (c : Dev nD) : S128.Idx → EReal := m ((c : Thread nD τ).loc main_arg17)
abbrev A18 (c : Dev nD) : S256x128.Idx → EReal := m ((c : Thread nD τ).loc main_arg18)
abbrev A19 (c : Dev nD) : S128.Idx → EReal := m ((c : Thread nD τ).loc main_arg19)
abbrev A2 (c : Dev nD) : IVec S200000 32 := m ((c : Thread nD τ).loc main_arg2)
abbrev A3 (c : Dev nD) : IVec S200000 32 := m ((c : Thread nD τ).loc main_arg3)

/-! ## The first four regions' outputs -/

theorem v0_eq (c : Dev nD) :
    (W1 m ρ c (Proc.devRef .tc main_v0) : S50000x256.Idx → EReal) = denseRelu (A0 m c) (A4 m c) (A5 m c) :=
  (W1_arr m ρ c 3).trans (Region0.final (V0 m ρ) c)

theorem v1_eq (c : Dev nD) :
    (W2 m ρ c (Proc.devRef .tc main_v1) : S10000x256.Idx → EReal) = denseRelu (A1 m c) (A6 m c) (A7 m c) :=
  (W2_arr m ρ c 3).trans ((Region1.final (V1 m ρ) c).trans
    (denseRelu_congr (at1_arg1 m ρ c) (at1_arg6 m ρ c) (at1_arg7 m ρ c)))

theorem v2_eq (c : Dev nD) :
    (W3 m ρ c (Proc.devRef .tc main_v2) : S10000x256.Idx → EReal) = denseRelu (A1 m c) (A8 m c) (A9 m c) :=
  (W3_arr m ρ c 3).trans ((Region2.final (V2 m ρ) c).trans
    (denseRelu_congr (at2_arg1 m ρ c) (at2_arg8 m ρ c) (at2_arg9 m ρ c)))

theorem v3_eq (c : Dev nD) :
    (W4 m ρ c (Proc.devRef .tc main_v3) : S50000x256.Idx → EReal) = denseRelu (A0 m c) (A10 m c) (A11 m c) :=
  (W4_arr m ρ c 3).trans ((Region3.final (V3 m ρ) c).trans
    (denseRelu_congr (at3_arg0 m ρ c) (at3_arg10 m ρ c) (at3_arg11 m ρ c)))

/-! ## The host stretch: the two aggregates -/

/-- The users' aggregate as the stretch's operations of the contents it finds. -/
theorem v13_ops (c : Dev nD) :
    (W5 m ρ c (Proc.devRef .tc main_v13) : S50000x256.Idx → EReal)
      = scatU (W4 m ρ c (Proc.devRef .tc main_arg2))
          (Host.gather gather_S10000x256_S200000x1_S200000x256_1_0_n_n_0_1_1256 (W4 m ρ c (Proc.devRef .tc main_v2))
            (startU (W4 m ρ c (Proc.devRef .tc main_arg3)))) := by
  show StableHlo.after hostOps4 (W4 m ρ c) (Proc.devRef .tc main_v13) = _
  after_results_simp <;> rfl

/-- The dishes' aggregate as the stretch's operations of the contents it finds. -/
theorem v23_ops (c : Dev nD) :
    (W5 m ρ c (Proc.devRef .tc main_v23) : S10000x256.Idx → EReal)
      = scatD (W4 m ρ c (Proc.devRef .tc main_arg3))
          (Host.gather gather_S50000x256_S200000x1_S200000x256_1_0_n_n_0_1_1256 (W4 m ρ c (Proc.devRef .tc main_v3))
            (startD (W4 m ρ c (Proc.devRef .tc main_arg2)))) := by
  show StableHlo.after hostOps4 (W4 m ρ c) (Proc.devRef .tc main_v23) = _
  after_results_simp <;> rfl

/-- The users' aggregate: the dishes' message rows, one per edge, summed into the edges' users. -/
theorem v13_eq (c : Dev nD) :
    (W5 m ρ c (Proc.devRef .tc main_v13) : S50000x256.Idx → EReal)
      = scatU (A2 m c) (takeRows (denseRelu (A1 m c) (A8 m c) (A9 m c)) (rowsU (A3 m c))) := by
  rw [v13_ops, at4_arg2 m ρ c, at4_arg3 m ρ c, at4_v2 m ρ c, v2_eq m ρ c]
  exact congrArg (scatU (A2 m c)) (Cert.HostLayer.gather_eq (N := 10000) (E := 200000) (C := 256) (by decide)
    gather_S10000x256_S200000x1_S200000x256_1_0_n_n_0_1_1256_wf _ (startU (A3 m c)))

/-- The dishes' aggregate: the users' message rows, one per edge, summed into the edges' dishes. -/
theorem v23_eq (c : Dev nD) :
    (W5 m ρ c (Proc.devRef .tc main_v23) : S10000x256.Idx → EReal)
      = scatD (A3 m c) (takeRows (denseRelu (A0 m c) (A10 m c) (A11 m c)) (rowsD (A2 m c))) := by
  rw [v23_ops, at4_arg2 m ρ c, at4_arg3 m ρ c, v3_eq m ρ c]
  exact congrArg (scatD (A3 m c)) (Cert.HostLayer.gather_eq (N := 50000) (E := 200000) (C := 256) (by decide)
    gather_S50000x256_S200000x1_S200000x256_1_0_n_n_0_1_1256_wf _ (startD (A2 m c)))

/-! ## The results -/

/-- The users' embedding. -/
theorem v24_eq (c : Dev nD) :
    (W7 m ρ c (Proc.devRef .tc main_v24) : S50000x128.Idx → EReal)
      = embed (scatU (A2 m c)) (rowsU (A3 m c)) (A0 m c) (A1 m c) (A4 m c) (A5 m c) (A8 m c) (A9 m c)
          (A12 m c) (A13 m c) (A16 m c) (A17 m c) :=
  (at7_v24 m ρ c).trans ((W6_arr m ρ c 6).trans ((Region4.final (V5 m ρ) c).trans
    (updProj_congr (v13_eq m ρ c) ((at5_v0 m ρ c).trans (v0_eq m ρ c)) (at5_arg12 m ρ c) (at5_arg13 m ρ c)
      (at5_arg16 m ρ c) (at5_arg17 m ρ c))))

/-- The dishes' embedding. -/
theorem v25_eq (c : Dev nD) :
    (W7 m ρ c (Proc.devRef .tc main_v25) : S10000x128.Idx → EReal)
      = embed (scatD (A3 m c)) (rowsD (A2 m c)) (A1 m c) (A0 m c) (A6 m c) (A7 m c) (A10 m c) (A11 m c)
          (A14 m c) (A15 m c) (A18 m c) (A19 m c) :=
  (W7_arr m ρ c 6).trans ((Region5.final (V6 m ρ) c).trans
    (updProj_congr ((at6_v23 m ρ c).trans (v23_eq m ρ c)) ((at6_v1 m ρ c).trans (v1_eq m ρ c)) (at6_arg14 m ρ c)
      (at6_arg15 m ρ c) (at6_arg18 m ρ c) (at6_arg19 m ρ c)))

end Cert.KernelIdeal.KValue

end
-- ==== Proof.RefValue.lean ====
/-
  The reference's two results as the specification's embeddings of its arguments.

  Each result is: the other side's features gathered per edge (the sender's index wrapped when negative and clamped),
  the message layer with the rectifier, the per-edge rows summed into their receivers, the receivers' own initial layer
  added, then the update layer with the rectifier and the projection layer.  Read layer by layer these are the
  specification's functions; gathering rows commutes with the message layer.
-/
import proofs.«112475_j16947940950559_1_alg».proof.Proof.Gen.ReferenceIdeal.Run
import proofs.«112475_j16947940950559_1_alg».proof.Proof.HostLayer

noncomputable section

namespace Cert.ReferenceIdeal.RefValue

open Cert.ReferenceIdeal Cert.ReferenceIdeal.Gen Idealize.ShloMosaic Idealize.ShloMosaic.TcCoe Idealize.ShloMosaic.ValueIdx Cert.Spec

/-- The scatter-add of per-edge rows into their 50000 receivers, from zeros: one function of the rows, never opened. -/
def scatU (a2 : IVec S200000 32) : (S200000x256.Idx → EReal) → S50000x256.Idx → EReal :=
  fun u => Host.scatterAdd (F := Ideal) scatter_S50000x256_S200000x1_S200000x256_1_0_0_1
    (broadcastInDim S50000x256 ![] bcast_S_S50000x256 (constant (F := Ideal) S_ .f32 0x00000000#32))
    (broadcastInDim S200000x1 ![0] bcast_S200000_S200000x1_0 a2) u

/-- The start indices of the gather: a negative sender index wrapped by 10000, as a column. -/
def startU (a3 : IVec S200000 32) : IVec S200000x1 32 :=
  broadcastInDim S200000x1 ![0] bcast_S200000_S200000x1_0 (select (cmpi .slt a3 (broadcastInDim S200000 ![] bcast_S_S200000 (constantI S_ 32 0#32))) (addi a3 (broadcastInDim S200000 ![] bcast_S_S200000 (constantI S_ 32 10000#32))) a3)

/-- The sender row each edge reads: its start index clamped into the 10000 rows. -/
def rowsU (a3 : IVec S200000 32) : Fin 200000 → Fin 10000 :=
  fun e => ⟨Cert.LibGather.rowOf 10000 (startU a3) e, Cert.LibGather.rowOf_lt (by decide) (startU a3) e⟩

/-- The reference's result term is the embedding of the specification. -/
theorem resultU_eq (a0 : FVec Ideal S50000x1024 .f32) (a1 : FVec Ideal S10000x1024 .f32) (a2 a3 : IVec S200000 32)
    (a4 : FVec Ideal S1024x256 .f32) (a5 : FVec Ideal S256 .f32) (a8 : FVec Ideal S1024x256 .f32) (a9 : FVec Ideal S256 .f32)
    (a12 : FVec Ideal S256x256 .f32) (a13 : FVec Ideal S256 .f32) (a16 : FVec Ideal S256x128 .f32) (a17 : FVec Ideal S128 .f32) :
    addf (F := Ideal) (Host.dotGeneral (F := Ideal) dot_S50000x256_S256x128_S50000x128_1_0_0_1_n_n none (maximumf (F := Ideal) (addf (F := Ideal) (Host.dotGeneral (F := Ideal) dot_S50000x256_S256x256_S50000x256_1_0_0_1_n_n none (addf (F := Ideal) (Host.scatterAdd (F := Ideal) scatter_S50000x256_S200000x1_S200000x256_1_0_0_1 (broadcastInDim S50000x256 ![] bcast_S_S50000x256 (constant (F := Ideal) S_ .f32 0x00000000#32)) (broadcastInDim S200000x1 ![0] bcast_S200000_S200000x1_0 a2) (maximumf (F := Ideal) (addf (F := Ideal) (Host.dotGeneral (F := Ideal) dot_S200000x1024_S1024x256_S200000x256_1_0_0_1_n_n none (Host.gather gather_S10000x1024_S200000x1_S200000x1024_1_0_n_n_0_1_11024 a1 (broadcastInDim S200000x1 ![0] bcast_S200000_S200000x1_0 (select (cmpi .slt a3 (broadcastInDim S200000 ![] bcast_S_S200000 (constantI S_ 32 0#32))) (addi a3 (broadcastInDim S200000 ![] bcast_S_S200000 (constantI S_ 32 10000#32))) a3))) a8) (broadcastInDim S200000x256 ![0, 1] bcast_S1x256_S200000x256_0_1 (broadcastInDim S1x256 ![1] bcast_S256_S1x256_1 a9))) (broadcastInDim S200000x256 ![] bcast_S_S200000x256 (constant (F := Ideal) S_ .f32 0x00000000#32)))) (maximumf (F := Ideal) (addf (F := Ideal) (Host.dotGeneral (F := Ideal) dot_S50000x1024_S1024x256_S50000x256_1_0_0_1_n_n none a0 a4) (broadcastInDim S50000x256 ![0, 1] bcast_S1x256_S50000x256_0_1 (broadcastInDim S1x256 ![1] bcast_S256_S1x256_1 a5))) (broadcastInDim S50000x256 ![] bcast_S_S50000x256 (constant (F := Ideal) S_ .f32 0x00000000#32)))) a12) (broadcastInDim S50000x256 ![0, 1] bcast_S1x256_S50000x256_0_1 (broadcastInDim S1x256 ![1] bcast_S256_S1x256_1 a13))) (broadcastInDim S50000x256 ![] bcast_S_S50000x256 (constant (F := Ideal) S_ .f32 0x00000000#32))) a16) (broadcastInDim S50000x128 ![0, 1] bcast_S1x128_S50000x128_0_1 (broadcastInDim S1x128 ![1] bcast_S128_S1x128_1 a17))
      = embed (scatU a2) (rowsU a3) a0 a1 a4 a5 a8 a9 a12 a13 a16 a17 := by
  refine (Cert.HostLayer.dense_eq dot_S50000x256_S256x128_S50000x128_1_0_0_1_n_n_wf _ a16 a17 _ _).trans ?_
  refine congrArg (fun z => dense z a16 a17) ?_
  refine (Cert.HostLayer.denseRelu_eq dot_S50000x256_S256x256_S50000x256_1_0_0_1_n_n_wf _ a12 a13 _ _ _).trans ?_
  refine congrArg (fun z => denseRelu z a12 a13) ?_
  show addMat _ _ = addMat _ _
  refine congrArg₂ addMat ?_ ?_
  · refine congrArg (scatU a2) ?_
    refine (Cert.HostLayer.denseRelu_eq dot_S200000x1024_S1024x256_S200000x256_1_0_0_1_n_n_wf _ a8 a9 _ _ _).trans ?_
    exact (congrArg (fun z => denseRelu z a8 a9)
      (Cert.HostLayer.gather_eq (N := 10000) (E := 200000) (C := 1024) (by decide)
        gather_S10000x1024_S200000x1_S200000x1024_1_0_n_n_0_1_11024_wf a1 (startU a3))).trans
      (denseRelu_takeRows a1 a8 a9 (rowsU a3))
  · exact Cert.HostLayer.denseRelu_eq dot_S50000x1024_S1024x256_S50000x256_1_0_0_1_n_n_wf a0 a4 a5 _ _ _

/-- The scatter-add of per-edge rows into their 10000 receivers, from zeros: one function of the rows, never opened. -/
def scatD (a3 : IVec S200000 32) : (S200000x256.Idx → EReal) → S10000x256.Idx → EReal :=
  fun u => Host.scatterAdd (F := Ideal) scatter_S10000x256_S200000x1_S200000x256_1_0_0_1
    (broadcastInDim S10000x256 ![] bcast_S_S10000x256 (constant (F := Ideal) S_ .f32 0x00000000#32))
    (broadcastInDim S200000x1 ![0] bcast_S200000_S200000x1_0 a3) u

/-- The start indices of the gather: a negative sender index wrapped by 50000, as a column. -/
def startD (a2 : IVec S200000 32) : IVec S200000x1 32 :=
  broadcastInDim S200000x1 ![0] bcast_S200000_S200000x1_0 (select (cmpi .slt a2 (broadcastInDim S200000 ![] bcast_S_S200000 (constantI S_ 32 0#32))) (addi a2 (broadcastInDim S200000 ![] bcast_S_S200000 (constantI S_ 32 50000#32))) a2)

/-- The sender row each edge reads: its start index clamped into the 50000 rows. -/
def rowsD (a2 : IVec S200000 32) : Fin 200000 → Fin 50000 :=
  fun e => ⟨Cert.LibGather.rowOf 50000 (startD a2) e, Cert.LibGather.rowOf_lt (by decide) (startD a2) e⟩

/-- The reference's result term is the embedding of the specification. -/
theorem resultD_eq (a0 : FVec Ideal S50000x1024 .f32) (a1 : FVec Ideal S10000x1024 .f32) (a2 a3 : IVec S200000 32)
    (a6 : FVec Ideal S1024x256 .f32) (a7 : FVec Ideal S256 .f32) (a10 : FVec Ideal S1024x256 .f32) (a11 : FVec Ideal S256 .f32)
    (a14 : FVec Ideal S256x256 .f32) (a15 : FVec Ideal S256 .f32) (a18 : FVec Ideal S256x128 .f32) (a19 : FVec Ideal S128 .f32) :
    addf (F := Ideal) (Host.dotGeneral (F := Ideal) dot_S10000x256_S256x128_S10000x128_1_0_0_1_n_n none (maximumf (F := Ideal) (addf (F := Ideal) (Host.dotGeneral (F := Ideal) dot_S10000x256_S256x256_S10000x256_1_0_0_1_n_n none (addf (F := Ideal) (Host.scatterAdd (F := Ideal) scatter_S10000x256_S200000x1_S200000x256_1_0_0_1 (broadcastInDim S10000x256 ![] bcast_S_S10000x256 (constant (F := Ideal) S_ .f32 0x00000000#32)) (broadcastInDim S200000x1 ![0] bcast_S200000_S200000x1_0 a3) (maximumf (F := Ideal) (addf (F := Ideal) (Host.dotGeneral (F := Ideal) dot_S200000x1024_S1024x256_S200000x256_1_0_0_1_n_n none (Host.gather gather_S50000x1024_S200000x1_S200000x1024_1_0_n_n_0_1_11024 a0 (broadcastInDim S200000x1 ![0] bcast_S200000_S200000x1_0 (select (cmpi .slt a2 (broadcastInDim S200000 ![] bcast_S_S200000 (constantI S_ 32 0#32))) (addi a2 (broadcastInDim S200000 ![] bcast_S_S200000 (constantI S_ 32 50000#32))) a2))) a10) (broadcastInDim S200000x256 ![0, 1] bcast_S1x256_S200000x256_0_1 (broadcastInDim S1x256 ![1] bcast_S256_S1x256_1 a11))) (broadcastInDim S200000x256 ![] bcast_S_S200000x256 (constant (F := Ideal) S_ .f32 0x00000000#32)))) (maximumf (F := Ideal) (addf (F := Ideal) (Host.dotGeneral (F := Ideal) dot_S10000x1024_S1024x256_S10000x256_1_0_0_1_n_n none a1 a6) (broadcastInDim S10000x256 ![0, 1] bcast_S1x256_S10000x256_0_1 (broadcastInDim S1x256 ![1] bcast_S256_S1x256_1 a7))) (broadcastInDim S10000x256 ![] bcast_S_S10000x256 (constant (F := Ideal) S_ .f32 0x00000000#32)))) a14) (broadcastInDim S10000x256 ![0, 1] bcast_S1x256_S10000x256_0_1 (broadcastInDim S1x256 ![1] bcast_S256_S1x256_1 a15))) (broadcastInDim S10000x256 ![] bcast_S_S10000x256 (constant (F := Ideal) S_ .f32 0x00000000#32))) a18) (broadcastInDim S10000x128 ![0, 1] bcast_S1x128_S10000x128_0_1 (broadcastInDim S1x128 ![1] bcast_S128_S1x128_1 a19))
      = embed (scatD a3) (rowsD a2) a1 a0 a6 a7 a10 a11 a14 a15 a18 a19 := by
  refine (Cert.HostLayer.dense_eq dot_S10000x256_S256x128_S10000x128_1_0_0_1_n_n_wf _ a18 a19 _ _).trans ?_
  refine congrArg (fun z => dense z a18 a19) ?_
  refine (Cert.HostLayer.denseRelu_eq dot_S10000x256_S256x256_S10000x256_1_0_0_1_n_n_wf _ a14 a15 _ _ _).trans ?_
  refine congrArg (fun z => denseRelu z a14 a15) ?_
  show addMat _ _ = addMat _ _
  refine congrArg₂ addMat ?_ ?_
  · refine congrArg (scatD a3) ?_
    refine (Cert.HostLayer.denseRelu_eq dot_S200000x1024_S1024x256_S200000x256_1_0_0_1_n_n_wf _ a10 a11 _ _ _).trans ?_
    exact (congrArg (fun z => denseRelu z a10 a11)
      (Cert.HostLayer.gather_eq (N := 50000) (E := 200000) (C := 1024) (by decide)
        gather_S50000x1024_S200000x1_S200000x1024_1_0_n_n_0_1_11024_wf a0 (startD a2))).trans
      (denseRelu_takeRows a0 a10 a11 (rowsD a2))
  · exact Cert.HostLayer.denseRelu_eq dot_S10000x1024_S1024x256_S10000x256_1_0_0_1_n_n_wf a1 a6 a7 _ _ _

end Cert.ReferenceIdeal.RefValue

end
-- ==== Proof.lean ====
/-
  A two-sided graph network layer: users and dishes joined by 200000 edges.

  Both programs compute, for each side, the same function of the arguments at the extended reals.  The other side's
  features go through a message layer (a dense layer with the rectifier); each edge takes its sender's row of the
  result, and the rows are summed into the edges' receivers; the receivers' own features go through an initial layer of
  the same kind; the sum of aggregate and initial rows goes through an update layer with the rectifier and a
  projection layer.

  The kernel computes the message layer once per sender and takes the edges' rows afterwards; the reference takes the
  edges' rows of the features first and applies the layer per edge.  A dense layer works row by row, so taking rows
  commutes with it: that is the one law between the two (Proof/Spec.lean, `denseRelu_takeRows`).  The summation into
  receivers is the same host operation on both sides, applied to equal rows, and is never opened.  Narrowing a factor
  to a shorter float format is the identity on extended reals, and a matrix product into a zero accumulator is the
  host's contraction: both are the sum over k of the products.  No step needs the inputs to be finite.

  The kernel's six regions each write 2000 rows per grid point, the blocks covering the array (Proof/Region0 … Region5
  over Proof/Layer.lean); the contents between regions are followed through the program's boundaries (Proof/KChain.lean,
  Proof/KValue.lean) under the run with both results named (Proof/KRun.lean).  The reference's results are read layer by
  layer (Proof/HostLayer.lean, Proof/RefValue.lean).  The frames of the two kernel programs are the generated ones; the
  reference's frame is its generated run with the results dropped.
-/
import proofs.«112475_j16947940950559_1_alg».proof.Defs
import proofs.«112475_j16947940950559_1_alg».proof.Proof.Gen.Kernel
import proofs.«112475_j16947940950559_1_alg».proof.Proof.Gen.Kernel.Frame
import proofs.«112475_j16947940950559_1_alg».proof.Proof.Gen.KernelIdeal
import proofs.«112475_j16947940950559_1_alg».proof.Proof.Gen.KernelIdeal.Frame
import proofs.«112475_j16947940950559_1_alg».proof.Proof.Gen.ReferenceIdeal
import proofs.«112475_j16947940950559_1_alg».proof.Proof.Gen.Pre_finite_inputs
import proofs.«112475_j16947940950559_1_alg».proof.Proof.Gen.ReferenceIdeal.Run
import proofs.«112475_j16947940950559_1_alg».proof.Proof.KRun
import proofs.«112475_j16947940950559_1_alg».proof.Proof.KValue
import proofs.«112475_j16947940950559_1_alg».proof.Proof.RefValue
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each side's embedding of the arguments. -/
theorem algebraic : Cert.algebraic_KernelIdeal_ReferenceIdeal := by
  intro m ρ m' ρ' _ hagree
  refine ⟨fun c => embed (Cert.KernelIdeal.KValue.scatU (Cert.KernelIdeal.KValue.A2 m c))
      (Cert.KernelIdeal.KValue.rowsU (Cert.KernelIdeal.KValue.A3 m c))
      (Cert.KernelIdeal.KValue.A0 m c) (Cert.KernelIdeal.KValue.A1 m c) (Cert.KernelIdeal.KValue.A4 m c)
      (Cert.KernelIdeal.KValue.A5 m c) (Cert.KernelIdeal.KValue.A8 m c) (Cert.KernelIdeal.KValue.A9 m c)
      (Cert.KernelIdeal.KValue.A12 m c) (Cert.KernelIdeal.KValue.A13 m c) (Cert.KernelIdeal.KValue.A16 m c)
      (Cert.KernelIdeal.KValue.A17 m c),
    fun c => embed (Cert.KernelIdeal.KValue.scatD (Cert.KernelIdeal.KValue.A3 m c))
      (Cert.KernelIdeal.KValue.rowsD (Cert.KernelIdeal.KValue.A2 m c))
      (Cert.KernelIdeal.KValue.A1 m c) (Cert.KernelIdeal.KValue.A0 m c) (Cert.KernelIdeal.KValue.A6 m c)
      (Cert.KernelIdeal.KValue.A7 m c) (Cert.KernelIdeal.KValue.A10 m c) (Cert.KernelIdeal.KValue.A11 m c)
      (Cert.KernelIdeal.KValue.A14 m c) (Cert.KernelIdeal.KValue.A15 m c) (Cert.KernelIdeal.KValue.A18 m c)
      (Cert.KernelIdeal.KValue.A19 m c), ?_, ?_⟩
  · exact (θ_run Cert.KernelIdeal.defs _ _).mono
      (fun r h c => ⟨(h c).1.trans (Cert.KernelIdeal.KValue.v24_eq m ρ c),
        (h c).2.1.trans (Cert.KernelIdeal.KValue.v25_eq m ρ c), (h c).2.2⟩)
      (Cert.KernelIdeal.Run.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19⟩ := hagree c
      rw [e0, e1, e2, e3, e4, e5, e8, e9, e12, e13, e16, e17]
      exact Cert.ReferenceIdeal.RefValue.resultU_eq _ _ _ _ _ _ _ _ _ _ _ _
    · obtain ⟨e0, e1, e2, e3, e4, e5, e6, e7, e8, e9, e10, e11, e12, e13, e14, e15, e16, e17, e18, e19⟩ := hagree c
      rw [e0, e1, e2, e3, e6, e7, e10, e11, e14, e15, e18, e19]
      exact Cert.ReferenceIdeal.RefValue.resultD_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
